-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S1024 : Shape := ⟨1, ![1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024x64 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x64 .f32 := Host.absf main_arg9
  let main_cst_16 : FVec F S_ .f32 := constant S_ .f32 0x7F800000#32
  let main_v45 : FVec F S1024x64 .f32 := broadcastInDim S1024x64 ![] bcast_S_S1024x64 main_cst_16
  let main_v46 : IVec S1024x64 1 := cmpf .olt main_v44 main_v45
  let main_c_17 : IVec S_ 1 := constantI S_ 1 1#1
  let main_v47 : IVec S_ 1 := (fun x v => Host.reduce IntOp.andi x v reducesTo_S1024x64_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S64x1024 .f32) (main_arg5 : FVec F S64x1024 .f32) (main_arg6 : FVec F S1024 .f32) (main_arg7 : FVec F S1024 .f32) (main_arg8 : FVec F S1024 .f32) (main_arg9 : FVec F S1024x64 .f32) (main_arg10 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x1024 .f32) (main_arg1 : FVec F S4x4096x1024 .f32) (main_arg2 : FVec F S4x4096x1024 .f32) (main_arg3 : FVec F S64x1024 .f32) (main_arg4 : FVec F S64x1024 .f32) (main_arg5 : FVec F S64x1024 .f32) (main_arg6 : FVec F S1024 .f32) (main_arg7 : FVec F S1024 .f32) (main_arg8 : FVec F S1024 .f32) (main_arg9 : FVec F S1024x64 .f32) (main_arg10 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_v13 main_v16
-- ==== Kernel.lean ====
abbrev S4x4096x1024 : Shape := ⟨3, ![4, 4096, 1024]⟩
abbrev S64x1024 : Shape := ⟨2, ![64, 1024]⟩
abbrev S1024 : Shape := ⟨1, ![1024]⟩
abbrev S1024x64 : Shape := ⟨2, ![1024, 64]⟩
abbrev S_ : Shape := ⟨0, ![]⟩
abbrev S128x1024 : Shape := ⟨2, ![128, 1024]⟩
abbrev S1024x128 : Shape := ⟨2, ![1024, 128]⟩
abbrev S4x4096x128 : Shape := ⟨3, ![4, 4096, 128]⟩
abbrev S1x512x1024 : Shape := ⟨3, ![1, 512, 1024]⟩
abbrev S1x512x128 : Shape := ⟨3, ![1, 512, 128]⟩
abbrev S512x1024 : Shape := ⟨2, ![512, 1024]⟩
abbrev S1x1024 : Shape := ⟨2, ![1, 1024]⟩
abbrev S512x128 : Shape := ⟨2, ![512, 128]⟩
abbrev S4x4096x4096 : Shape := ⟨3, ![4, 4096, 4096]⟩
abbrev S1x4096x128 : Shape := ⟨3, ![1, 4096, 128]⟩
abbrev S1x512x4096 : Shape := ⟨3, ![1, 512, 4096]⟩
abbrev S4096x128 : Shape := ⟨2, ![4096, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x4096 : Shape := ⟨3, ![1, 256, 4096]⟩
abbrev S256x1024 : Shape := ⟨2, ![256, 1024]⟩
abbrev S1x256x1024 : Shape := ⟨3, ![1, 256, 1024]⟩

abbrev nBuf : Space → Nat
  | .hbm => 32
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S128x1024, .f32⟩
  | .hbm, ⟨14, _⟩ => ⟨S128x1024, .bf16⟩
  | .hbm, ⟨15, _⟩ => ⟨S_, .i32⟩
  | .hbm, ⟨16, _⟩ => ⟨S_, .f32⟩
  | .hbm, ⟨17, _⟩ => ⟨S128x1024, .f32⟩
  | .hbm, ⟨18, _⟩ => ⟨S128x1024, .bf16⟩
  | .hbm, ⟨19, _⟩ => ⟨S_, .i32⟩
  | .hbm, ⟨20, _⟩ => ⟨S_, .f32⟩
  | .hbm, ⟨21, _⟩ => ⟨S128x1024, .f32⟩
  | .hbm, ⟨22, _⟩ => ⟨S128x1024, .bf16⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S4x4096x128, .bf16⟩
  | .hbm, ⟨28, _⟩ => ⟨S4x4096x128, .bf16⟩
  | .hbm, ⟨29, _⟩ => ⟨S4x4096x128, .bf16⟩
  | .hbm, ⟨30, _⟩ => ⟨S4x4096x1024, .f32⟩
  | .hbm, ⟨31, _⟩ => ⟨S4x4096x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S1x4096x128, .bf16⟩
  | .local _ .vmem, ⟨23, _⟩ => ⟨S1x4096x128, .bf16⟩
  | .local _ .vmem, ⟨24, _⟩ => ⟨S1024x128, .bf16⟩
  | .local _ .vmem, ⟨25, _⟩ => ⟨S1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x4096, .f32⟩
  | .local _ .vmem, ⟨29, _⟩ => ⟨S1x512x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_c_2 : Ref sig .tc := ⟨.hbm, 23, rfl⟩
abbrev main_call3_v0 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v9_0 : Ref sig .tc := ⟨.hbm, 30, rfl⟩
abbrev main_v9_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  pads_S64x1024_S128x1024_0640_000 : S64x1024.Pads (![0, 0] : Fin 2 → Nat) ![64, 0] ![0, 0] S128x1024
  h_S_ : 0 < S_.numel
  bitsLt_bf16_f32 : FTy.bits .bf16 < FTy.bits .f32
  pads_S1024x64_S1024x128_000_0640 : S1024x64.Pads (![0, 0] : Fin 2 → Nat) ![0, 64] ![0, 0] S1024x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x512x128_S1x256x128_0_0_0 : ∀ a, (![0, 0, 0] : Fin 3 → Nat) a + S1x256x128.size a ≤ S1x512x128.size a
  h_S1x256x128 : 0 < S1x256x128.numel
  shapeCasts_S1x256x128_S256x128 : S1x256x128.ShapeCasts S256x128
  reduces_S256x4096_S256 : S256x4096.Reduces [1] S256
  shapeCasts_S256_S256x1 : S256.ShapeCasts S256x1
  broadcasts_S256x1_S256x4096 : S256x1.Broadcasts S256x4096
  inb_S1x512x4096_S1x256x4096_0_0_0 : ∀ a, (![0, 0, 0] : Fin 3 → Nat) a + S1x256x4096.size a ≤ S1x512x4096.size a
  h_S1x256x4096 : 0 < S1x256x4096.numel
  shapeCasts_S1x256x4096_S256x4096 : S1x256x4096.ShapeCasts S256x4096
  shapeCasts_S256x4096_S1x256x4096 : S256x4096.ShapeCasts S1x256x4096
  broadcasts_S1x1024_S256x1024 : S1x1024.Broadcasts S256x1024
  inb_S1x512x1024_S1x256x1024_0_0_0 : ∀ a, (![0, 0, 0] : Fin 3 → Nat) a + S1x256x1024.size a ≤ S1x512x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x512x128_S1x256x128_0_256_0 : ∀ a, (![0, 256, 0] : Fin 3 → Nat) a + S1x256x128.size a ≤ S1x512x128.size a
  inb_S1x512x4096_S1x256x4096_0_256_0 : ∀ a, (![0, 256, 0] : Fin 3 → Nat) a + S1x256x4096.size a ≤ S1x512x4096.size a
  inb_S1x512x1024_S1x256x1024_0_256_0 : ∀ a, (![0, 256, 0] : Fin 3 → Nat) a + S1x256x1024.size a ≤ S1x512x1024.size a
  dot_S512x1024_S128x1024_S512x128_1_1_0_0_n_n_wf : DotDims.WF S512x1024 S128x1024 S512x128 [1] [1] [0] [0] [] []
  dot_S256x128_S4096x128_S256x4096_1_1_0_0_n_n_wf : DotDims.WF S256x128 S4096x128 S256x4096 [1] [1] [0] [0] [] []
  dot_S256x4096_S4096x128_S256x128_1_0_0_1_n_n_wf : DotDims.WF S256x4096 S4096x128 S256x128 [1] [0] [0] [1] [] []
  dot_S256x128_S1024x128_S256x1024_1_1_0_0_n_n_wf : DotDims.WF S256x128 S1024x128 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .f32 = 32 ∨ (Rect.block (s := S4x4096x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .bf16 = 32 ∨ (Rect.block (s := S128x1024) S128x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .bf16 = 32 ∨ (Rect.block (s := S128x1024) S128x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .bf16 = 32 ∨ (Rect.block (s := S128x1024) S128x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x128.size a ≤ S4x4096x128.size a
  hwx0_9 : ∀ i : grid0.Coords, EltTy.bits .bf16 = 32 ∨ (Rect.block (s := S4x4096x128) S1x512x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S4x4096x128.size a
  hwx0_10 : ∀ i : grid0.Coords, EltTy.bits .bf16 = 32 ∨ (Rect.block (s := S4x4096x128) S1x512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x128.size a ≤ S4x4096x128.size a
  hwx0_11 : ∀ i : grid0.Coords, EltTy.bits .bf16 = 32 ∨ (Rect.block (s := S4x4096x128) S1x512x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x128.size a
  hwx1_0 : ∀ i : grid1.Coords, EltTy.bits .bf16 = 32 ∨ (Rect.block (s := S4x4096x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .bf16 = 32 ∨ (Rect.block (s := S4x4096x128) S1x4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .bf16 = 32 ∨ (Rect.block (s := S1024x128) S1024x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x4096x1024.size a
  hwx1_5 : ∀ i : grid1.Coords, EltTy.bits .f32 = 32 ∨ (Rect.block (s := S4x4096x1024) S1x512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x4096.size a ≤ S4x4096x4096.size a
  hwx1_6 : ∀ i : grid1.Coords, EltTy.bits .f32 = 32 ∨ (Rect.block (s := S4x4096x4096) S1x512x4096.size (cc1_transform_6 i) (hinb1_6 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S1x512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S1x512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_2) S1x512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v8_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S1x512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S1x512x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S1024 : Shape := ⟨1, ![1024]⟩
abbrev S1024x64 : Shape := ⟨2, ![1024, 64]⟩
abbrev S1x1x1024 : Shape := ⟨3, ![1, 1, 1024]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S1024, .f32⟩
  | .hbm, ⟨11, _⟩ => ⟨S1x1x1024, .f32⟩
  | .hbm, ⟨12, _⟩ => ⟨S4x4096x1024, .f32⟩
  | .hbm, ⟨13, _⟩ => ⟨S4x4096x1024, .f32⟩
  | .hbm, ⟨14, _⟩ => ⟨S4x4096x64, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S4x4096x64, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x64, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x64, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S1024x64_S4x4096x1024_2_1_01_0_n_n_wf : DotDims.WF S4x4096x64 S1024x64 S4x4096x1024 [2] [1] [0, 1] [0] [] []

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S1024x64_S4x4096x1024_2_1_01_0_n_n : DotDims S4x4096x64 S1024x64 S4x4096x1024 where
  lhsContracting := [2]
  rhsContracting := [1]
  lhsNonContracting := [0, 1]
  rhsNonContracting := [0]
  lhsBatch := []
  rhsBatch := []
  wf := dot_S4x4096x64_S1024x64_S4x4096x1024_2_1_01_0_n_n_wf

class Facts : Prop extends Facts₀ where

variable [Facts]
-- ==== Proof.AttnSpec.lean ====
/-
  Attention in a low-rank space, index by index, on the extended reals.

  Rows of the three inputs are centred and projected on the rows of a weight matrix (`proj`); a row of scores is the
  inner products of a projected query row with every projected key row, scaled; a row of attention weights is the
  softmax of a row of scores, taken as the exponentials of the scores less their maximum over the sum of those
  exponentials (`softRow`); the output is the attention-weighted mix of projected value rows, projected back by the
  output weights, plus a bias.

  One program works in a space of 128 coordinates whose last 64 weight rows (and output weight columns) are zero and
  scales the scores by the word of 1/8; the other works in the 64 coordinates and divides the scores by the word of 8.
  A zero weight row makes the projected coordinate a sum of products with zero, which is zero on the extended reals
  with no finiteness needed (`x * 0 = 0` for every extended real), so the padded coordinates drop out of every
  contraction over the 128 coordinates (`sum_pad`); and dividing by 8 is multiplying by 1/8 (`scale_eq`).
-/
import Idealize.ShloMosaic.PureOps.Ideal
import Idealize.ShloMosaic.Lib.ValueIdx

noncomputable section

open scoped BigOperators

namespace Cert.LowRank

open Idealize.ShloMosaic Idealize.ShloMosaic.ValueIdx

abbrev Arr3 (a b c : ℕ) : Type := (⟨3, ![a, b, c]⟩ : Shape).Idx → EReal
abbrev Arr2 (a b : ℕ) : Type := (⟨2, ![a, b]⟩ : Shape).Idx → EReal
abbrev Arr1 (a : ℕ) : Type := (⟨1, ![a]⟩ : Shape).Idx → EReal

variable {K : ℕ}

/-! ## The formulas -/

/-- Row `(b, s)` of an input, centred by `mu`, against row `k` of the weights. -/
def projC (x : Arr3 4 4096 1024) (mu : Arr1 1024) (W : Arr2 K 1024) (b : Fin 4) (s : Fin 4096) (k : Fin K) : EReal :=
  ∑ h : Fin 1024, (x (ix3 b s h) - mu (ix1 h)) * W (ix2 k h)

/-- The projected array. -/
def proj (x : Arr3 4 4096 1024) (mu : Arr1 1024) (W : Arr2 K 1024) : Arr3 4 4096 K :=
  fun j => projC x mu W (j 0) (j 1) (j 2)

/-- The largest entry of a row, from the word of minus infinity. -/
def rowTop (f : Fin 4096 → EReal) : EReal :=
  (Finset.univ : Finset (Fin 4096)).fold max (Ideal.ofBits .f32 0xFF800000#32) f

/-- The softmax of a row at entry `s`. -/
def softRow (f : Fin 4096 → EReal) (s : Fin 4096) : EReal :=
  Ideal.div (Ideal.exp (f s - rowTop f)) (∑ s' : Fin 4096, Ideal.exp (f s' - rowTop f))

/-- Scores of query row `(b, r)` in the space of 128 coordinates, scaled by the word of 1/8. -/
def scoreWide (q kk : Arr3 4 4096 128) (b : Fin 4) (r : Fin 4096) : Fin 4096 → EReal :=
  fun s => (∑ j : Fin 128, q (ix3 b r j) * kk (ix3 b s j)) * Ideal.ofBits .f32 0x3E000000#32

/-- Scores of query row `(b, r)` in the space of 64 coordinates, divided by the word of 8. -/
def scoreNarrow (q kk : Arr3 4 4096 64) (b : Fin 4) (r : Fin 4096) : Fin 4096 → EReal :=
  fun s => Ideal.div (∑ j : Fin 64, q (ix3 b r j) * kk (ix3 b s j)) (Ideal.ofBits .f32 0x41000000#32)

/-- Attention weights from a family of score rows. -/
def attnOf (sc : Fin 4 → Fin 4096 → Fin 4096 → EReal) : Arr3 4 4096 4096 :=
  fun j => softRow (sc (j 0) (j 1)) (j 2)

/-- Coordinate `k` of the attention-weighted mix of value rows for query row `(b, r)`. -/
def mixC (att : Arr3 4 4096 4096) (v : Arr3 4 4096 K) (b : Fin 4) (r : Fin 4096) (k : Fin K) : EReal :=
  ∑ s : Fin 4096, att (ix3 b r s) * v (ix3 b s k)

/-- Entry `(b, r, h)` of the output: the mix against row `h` of the output weights, plus the bias. -/
def outC (att : Arr3 4 4096 4096) (v : Arr3 4 4096 K) (Wo : Arr2 1024 K) (bo : Arr1 1024)
    (b : Fin 4) (r : Fin 4096) (h : Fin 1024) : EReal :=
  (∑ k : Fin K, mixC att v b r k * Wo (ix2 h k)) + bo (ix1 h)

/-- The output array. -/
def outOf (att : Arr3 4 4096 4096) (v : Arr3 4 4096 K) (Wo : Arr2 1024 K) (bo : Arr1 1024) : Arr3 4 4096 1024 :=
  fun j => outC att v Wo bo (j 0) (j 1) (j 2)

/-- 64 weight rows followed by 64 zero rows. -/
def padRows (W : Arr2 64 1024) : Arr2 128 1024 :=
  fun j => if h : (j 0).val < 64 then W (ix2 ⟨(j 0).val, h⟩ (j 1)) else 0

/-- 64 weight columns followed by 64 zero columns. -/
def padCols (W : Arr2 1024 64) : Arr2 1024 128 :=
  fun j => if h : (j 1).val < 64 then W (ix2 (j 0) ⟨(j 1).val, h⟩) else 0

/-- The attention weights computed in the padded space. -/
def wideAttn (x0 x1 : Arr3 4 4096 1024) (W3 W4 : Arr2 64 1024) (m6 m7 : Arr1 1024) : Arr3 4 4096 4096 :=
  attnOf (scoreWide (proj x0 m6 (padRows W3)) (proj x1 m7 (padRows W4)))

/-- The output computed in the padded space. -/
def wideOut (x0 x1 x2 : Arr3 4 4096 1024) (W3 W4 W5 : Arr2 64 1024) (m6 m7 m8 : Arr1 1024) (W9 : Arr2 1024 64)
    (b10 : Arr1 1024) : Arr3 4 4096 1024 :=
  outOf (wideAttn x0 x1 W3 W4 m6 m7) (proj x2 m8 (padRows W5)) (padCols W9) b10

/-- The attention weights computed in the 64 coordinates. -/
def narrowAttn (x0 x1 : Arr3 4 4096 1024) (W3 W4 : Arr2 64 1024) (m6 m7 : Arr1 1024) : Arr3 4 4096 4096 :=
  attnOf (scoreNarrow (proj x0 m6 W3) (proj x1 m7 W4))

/-- The output computed in the 64 coordinates. -/
def narrowOut (x0 x1 x2 : Arr3 4 4096 1024) (W3 W4 W5 : Arr2 64 1024) (m6 m7 m8 : Arr1 1024) (W9 : Arr2 1024 64)
    (b10 : Arr1 1024) : Arr3 4 4096 1024 :=
  outOf (narrowAttn x0 x1 W3 W4 m6 m7) (proj x2 m8 W5) W9 b10

/-! ## The law between the two -/

/-- A sum over 128 coordinates whose last 64 terms vanish is the sum over the first 64. -/
theorem sum_pad (f : Fin 128 → EReal) (hf : ∀ k : Fin 128, 64 ≤ k.val → f k = 0) :
    ∑ k : Fin 128, f k = ∑ k : Fin 64, f ⟨k.val, by omega⟩ := by
  have h := Fin.sum_univ_add (M := EReal) (a := 64) (b := 64) f
  rw [show (∑ k : Fin 128, f k) = ∑ k : Fin (64 + 64), f k from rfl, h]
  rw [Finset.sum_eq_zero (s := Finset.univ) (f := fun i : Fin 64 => f (Fin.natAdd 64 i))
    (fun i _ => hf _ (by simp [Fin.natAdd])), add_zero]
  exact Finset.sum_congr rfl fun k _ => congrArg f (Fin.ext rfl)

/-- A coordinate of the first 64 projected on padded weights is the coordinate projected on the weights. -/
theorem projC_pad_lo (x : Arr3 4 4096 1024) (mu : Arr1 1024) (W : Arr2 64 1024) (b : Fin 4) (s : Fin 4096)
    (k : Fin 64) : projC x mu (padRows W) b s ⟨k.val, by omega⟩ = projC x mu W b s k := by
  unfold projC
  refine Finset.sum_congr rfl fun h _ => ?_
  have e : padRows W (ix2 (⟨k.val, by omega⟩ : Fin 128) h) = W (ix2 k h) := by
    unfold padRows
    rw [dif_pos (show ((ix2 (⟨k.val, by omega⟩ : Fin 128) h : (⟨2, ![128, 1024]⟩ : Shape).Idx) 0).val < 64 from k.isLt)]
  rw [e]

/-- A coordinate of the last 64 projected on padded weights is zero. -/
theorem projC_pad_hi (x : Arr3 4 4096 1024) (mu : Arr1 1024) (W : Arr2 64 1024) (b : Fin 4) (s : Fin 4096)
    (k : Fin 128) (hk : 64 ≤ k.val) : projC x mu (padRows W) b s k = 0 := by
  unfold projC
  refine Finset.sum_eq_zero fun h _ => ?_
  have e : padRows W (ix2 k h) = 0 := by
    unfold padRows
    rw [dif_neg (show ¬ ((ix2 k h : (⟨2, ![128, 1024]⟩ : Shape).Idx) 0).val < 64 from by
      show ¬ k.val < 64; omega)]
  rw [e, mul_zero]

/-- The word of 1/8 and the word of 8. -/
theorem eighth_word : Ideal.ofBits .f32 0x3E000000#32 = (((1 / 8 : ℝ)) : EReal) := by
  simp [Ideal.ofBits, Ideal.ieee, -EReal.coe_mul]; norm_num

theorem eight_word : Ideal.ofBits .f32 0x41000000#32 = ((8 : ℝ) : EReal) := by
  simp [Ideal.ofBits, Ideal.ieee, -EReal.coe_mul]; norm_num

/-- Dividing by the word of 8 is multiplying by the word of 1/8, for every extended real. -/
theorem scale_eq (x : EReal) :
    x * Ideal.ofBits .f32 0x3E000000#32 = Ideal.div x (Ideal.ofBits .f32 0x41000000#32) := by
  rw [eighth_word, eight_word, Ideal.div_coe (by norm_num : (8 : ℝ) ≠ 0)]

/-- The scores agree. -/
theorem score_eq (x0 x1 : Arr3 4 4096 1024) (W3 W4 : Arr2 64 1024) (m6 m7 : Arr1 1024) :
    scoreWide (proj x0 m6 (padRows W3)) (proj x1 m7 (padRows W4))
      = scoreNarrow (proj x0 m6 W3) (proj x1 m7 W4) := by
  funext b r s
  unfold scoreWide scoreNarrow
  rw [← scale_eq]
  refine congrArg (· * _) ?_
  rw [sum_pad _ (fun k hk => by
    show projC x0 m6 (padRows W3) b r k * _ = 0
    rw [projC_pad_hi x0 m6 W3 b r k hk, zero_mul])]
  refine Finset.sum_congr rfl fun k _ => ?_
  show projC x0 m6 (padRows W3) b r ⟨k.val, _⟩ * projC x1 m7 (padRows W4) b s ⟨k.val, _⟩
    = projC x0 m6 W3 b r k * projC x1 m7 W4 b s k
  rw [projC_pad_lo, projC_pad_lo]

/-- The attention weights agree. -/
theorem attn_eq (x0 x1 : Arr3 4 4096 1024) (W3 W4 : Arr2 64 1024) (m6 m7 : Arr1 1024) :
    wideAttn x0 x1 W3 W4 m6 m7 = narrowAttn x0 x1 W3 W4 m6 m7 := by
  unfold wideAttn narrowAttn
  rw [score_eq]

/-- The outputs agree. -/
theorem out_eq (x0 x1 x2 : Arr3 4 4096 1024) (W3 W4 W5 : Arr2 64 1024) (m6 m7 m8 : Arr1 1024) (W9 : Arr2 1024 64)
    (b10 : Arr1 1024) :
    wideOut x0 x1 x2 W3 W4 W5 m6 m7 m8 W9 b10 = narrowOut x0 x1 x2 W3 W4 W5 m6 m7 m8 W9 b10 := by
  unfold wideOut narrowOut
  rw [attn_eq]
  generalize narrowAttn x0 x1 W3 W4 m6 m7 = att
  funext j
  obtain ⟨b, r, c, rfl⟩ : ∃ (b : Fin 4) (r : Fin 4096) (c : Fin 1024), j = ix3 b r c := ⟨j 0, j 1, j 2, eq_ix3 j⟩
  show outC att (proj x2 m8 (padRows W5)) (padCols W9) b10 b r c = outC att (proj x2 m8 W5) W9 b10 b r c
  unfold outC
  refine congrArg (· + _) ?_
  rw [sum_pad _ (fun k hk => by
    have e : padCols W9 (ix2 c k) = 0 := by
      unfold padCols
      rw [dif_neg (show ¬ ((ix2 c k : (⟨2, ![1024, 128]⟩ : Shape).Idx) 1).val < 64 from by
        show ¬ k.val < 64; omega)]
    rw [e, mul_zero])]
  refine Finset.sum_congr rfl fun k _ => ?_
  have e1 : padCols W9 (ix2 c (⟨k.val, by omega⟩ : Fin 128)) = W9 (ix2 c k) := by
    unfold padCols
    rw [dif_pos (show ((ix2 c (⟨k.val, by omega⟩ : Fin 128) : (⟨2, ![1024, 128]⟩ : Shape).Idx) 1).val < 64 from k.isLt)]
  have e2 : mixC att (proj x2 m8 (padRows W5)) b r (⟨k.val, by omega⟩ : Fin 128)
      = mixC att (proj x2 m8 W5) b r k := by
    unfold mixC
    refine Finset.sum_congr rfl fun s _ => ?_
    show _ * projC x2 m8 (padRows W5) b s ⟨k.val, _⟩ = _ * projC x2 m8 W5 b s k
    rw [projC_pad_lo]
  rw [e1, e2]

end Cert.LowRank

end
-- ==== Proof.KernelRunAll.lean ====
/-
  The idealized kernel program's run, with every buffer named.

  The program is nine stretches of host operations followed by the two regions. The generated frame certificate
  follows the contents of every buffer through those segments (`W0` at launch, …, `W11` after the second region)
  and proves that every weakly fair execution terminates with the buffers at `W11`, of which it then keeps the
  argument arrays only. Here the same launch is stated with the whole of that conclusion: after the run every
  buffer that outlives the regions holds what `W11` says, the two result arrays included.
-/
import proofs.«177251_j40862318854763_2_alg».proof.Proof.Gen.KernelIdeal.Frame
import Idealize.ShloMosaic.PureOps.Ideal

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting, and every final state has each buffer
    that outlives the regions at the contents the segments' fold names for it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.RunValue

end
-- ==== Proof.LibMatProductT.lean ====
/-
  A matrix product against a right operand stored by rows, into a zero accumulator, read at an entry.

  For operands `[m, k]` and `[n, k]`, both contracted over their columns, entry `(r, c)` of the product is the sum over
  the contracted coordinate `h` of `lhs (r, h) · rhs (c, h)`: row `r` of the left operand against row `c` of the right
  one. The contraction's one-axis index set is re-indexed by its coordinate.
-/
import Idealize.ShloMosaic.Lib.ValueIdx
import Idealize.ShloMosaic.PureOps.Ideal.Laws

noncomputable section

namespace Cert.LibMatProductT

open Idealize.ShloMosaic Idealize.ShloMosaic.ValueIdx

/-- Entry `(r, c)` of `lhs · rhsᵀ` into a zero accumulator is `∑ h, lhs (r, h) · rhs (c, h)`: both operands are
    contracted over their second axis, the result's rows are the left operand's and its columns the right operand's
    rows. -/
theorem matmul_rowsT_zero_apply {m k n : ℕ} {φ₁ φ₂ : FTy}
    (d : DotDims ⟨2, ![m, k]⟩ ⟨2, ![n, k]⟩ ⟨2, ![m, n]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![m, k]⟩ φ₁) (rhs : FVec Ideal ⟨2, ![n, k]⟩ φ₂) (r : Fin m) (c : Fin n) :
    FloatOps.matmul d prec lhs rhs (constant ⟨2, ![m, n]⟩ .f32 0x00000000#32) (ix2 r c)
      = ∑ h : Fin k, lhs (ix2 r h) * rhs (ix2 c h) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])
    | ⟨1, _⟩ =>
      show (d.rhsIdx (ix2 r c) _ 1).val = h.val
      rw [d.rhsIdx_val_of_single hrc]
      exact hval

end Cert.LibMatProductT

end
-- ==== Proof.ProjBlock.lean ====
/-
  One block of the projection, read at an entry.

  The body takes a block of 512 input rows (as `[1, 512, 1024]`), the 1024 means and the 128 weight rows; it drops
  the unit axis, subtracts the means from every row, multiplies by the weight rows (both contracted along their
  1024 columns) into a zero accumulator and puts the unit axis back. Changes of float format are the identity on the
  extended reals. So entry `(p, k)` of the result is the sum over `h` of the centred input entry `(p, h)` times
  weight entry `(k, h)`.
-/
import proofs.«177251_j40862318854763_2_alg».proof.Proof.Gen.KernelIdeal.Skeleton
import proofs.«177251_j40862318854763_2_alg».proof.Proof.LibMatProductT
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx

/-- The centred input entry times the weight entry, inside the contraction. -/
theorem centred_term (x : Vec Ideal S1x512x1024 .f32) (mu : Vec Ideal S1024 .f32) (w : Vec Ideal S128x1024 .bf16)
    (p : Fin 512) (k : Fin 128) (h : Fin 1024) :
    (truncf .bf16 (subf (shapeCast S512x1024 x shapeCasts_S1x512x1024_S512x1024)
        (broadcastTo S512x1024 (shapeCast S1x1024 mu shapeCasts_S1024_S1x1024) broadcasts_S1x1024_S512x1024)) bitsLt_bf16_f32 : FVec Ideal S512x1024 .bf16) (ix2 p h)
      * (shapeCast S128x1024 w shapeCasts_S128x1024_S128x1024 : FVec Ideal S128x1024 .bf16) (ix2 k h)
    = (x (ix3 (0 : Fin 1) p h) - mu (ix1 h)) * w (ix2 k h) := by
  have e1 : shapeCast S512x1024 x shapeCasts_S1x512x1024_S512x1024 (ix2 p h) = x (ix3 (0 : Fin 1) p h) :=
    shapeCast_1ab_ab_apply x _ p h
  have e2 : broadcastTo S512x1024 (shapeCast S1x1024 mu shapeCasts_S1024_S1x1024) broadcasts_S1x1024_S512x1024 (ix2 p h) = mu (ix1 h) :=
    (broadcastTo_1b_ab_apply _ _ p h).trans (shapeCast_a_1a_apply mu _ 0 h)
  have e3 : shapeCast S128x1024 w shapeCasts_S128x1024_S128x1024 (ix2 k h) = w (ix2 k h) :=
    congrFun (shapeCast_self w _) _
  show (shapeCast S512x1024 x shapeCasts_S1x512x1024_S512x1024 (ix2 p h)
      - broadcastTo S512x1024 (shapeCast S1x1024 mu shapeCasts_S1024_S1x1024) broadcasts_S1x1024_S512x1024 (ix2 p h))
      * shapeCast S128x1024 w shapeCasts_S128x1024_S128x1024 (ix2 k h) = _
  rw [e1, e2, e3]

/-- Entry `(p, k)` of a projected block. -/
theorem proj_block (x : Vec Ideal S1x512x1024 .f32) (mu : Vec Ideal S1024 .f32) (w : Vec Ideal S128x1024 .bf16)
    (u : Fin 1) (p : Fin 512) (k : Fin 128) :
    k0_pay2 (F := Ideal) x mu w (ix3 u p k) = ∑ h : Fin 1024, (x (ix3 (0 : Fin 1) p h) - mu (ix1 h)) * w (ix2 k h) := by
  unfold k0_pay2
  refine (shapeCast_ab_1ab_apply _ _ u p k).trans ?_
  refine (LibMatProductT.matmul_rowsT_zero_apply dot_S512x1024_S128x1024_S512x128_1_1_0_0_n_n none rfl rfl rfl rfl rfl rfl _ _ p k).trans ?_
  exact Finset.sum_congr rfl fun h _ => centred_term x mu w p k h

/-- The second and third projections are the same body over other operands. -/
theorem pay3_eq (x : Vec Ideal S1x512x1024 .f32) (mu : Vec Ideal S1024 .f32) (w : Vec Ideal S128x1024 .bf16) :
    k0_pay3 (F := Ideal) x mu w = k0_pay2 (F := Ideal) x mu w := rfl

theorem pay1_eq (x : Vec Ideal S1x512x1024 .f32) (mu : Vec Ideal S1024 .f32) (w : Vec Ideal S128x1024 .bf16) :
    k0_pay1 (F := Ideal) (k0_pay4 x) (k0_pay5 mu) w = k0_pay2 (F := Ideal) x mu w := rfl

end Cert.KernelIdeal.Blocks

end
-- ==== Proof.Region0Value.lean ====
/-
  The first region (the three projections), as whole arrays.

  The grid is 4 × 8: point `(t₀, t₁)` takes rows `512 t₁ … 512 t₁ + 511` of batch `t₀` of each input, all of each
  weight matrix and all the means, and writes back the same rows of batch `t₀` of each output. The body's block is the
  projection of its input block (`Blocks.proj_block`), which is the projection of the whole input read at the block's
  rows; the 32 blocks tile each output array. So after the region each output array is the projection of its input
  array, as the region finds the arrays on entry.
-/
import proofs.«177251_j40862318854763_2_alg».proof.Proof.Gen.KernelIdeal.Frame
import proofs.«177251_j40862318854763_2_alg».proof.Proof.ProjBlock
import proofs.«177251_j40862318854763_2_alg».proof.Proof.AttnSpec

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Output window 9: the projection of input 0 -/

/-- The index maps over the grid: the input block moves with the output block, the weights and the means are whole. -/
theorem idx_facts9 : ∀ t : Fin cfg0.N,
    win0_0.index t (0 : Fin 3) = win0_9.index t (0 : Fin 3) ∧ win0_0.index t (1 : Fin 3) = win0_9.index t (1 : Fin 3)
    ∧ win0_0.index t (2 : Fin 3) = 0 ∧ win0_9.index t (2 : Fin 3) = 0
    ∧ win0_3.index t (0 : Fin 2) = 0 ∧ win0_3.index t (1 : Fin 2) = 0 ∧ win0_6.index t (0 : Fin 1) = 0
    ∧ win0_9.index t (0 : Fin 3) ≤ 3 ∧ win0_9.index t (1 : Fin 3) ≤ 7 :=
  (by decide +kernel : ∀ t : Fin grid0.N, _)

/-- Every block of the output array is some point's. -/
theorem idx_onto9 : ∀ (q0 : Fin 4) (q1 : Fin 8), ∃ t : Fin cfg0.N, win0_9.index t = ![q0.val, q1.val, 0] :=
  (by decide +kernel : ∀ (q0 : Fin 4) (q1 : Fin 8), ∃ t : Fin grid0.N, win0_9.index t = ![q0.val, q1.val, 0])

/-- What point `t` writes back is block `t` of the projection of the arrays as the region finds them: rows
    `512 t₁ … 512 t₁ + 511` of batch `t₀` of the input against all weight rows. -/
theorem flushed9_eq (c : Dev nD) (t : Fin cfg0.N) :
    (dat0 V c).flushed 9 t = ((cfg0.win 9).blk t).view.read (Elt Ideal)
      (LowRank.proj (V c main_arg0) (V c main_arg6) (V c main_v1)) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1024) hz1, View.ld_unit_zero (S := S128x1024) hz2]
  obtain ⟨e0, e1, e2, e3, e4, e5, e6, e7, e8⟩ := idx_facts9 t
  funext j
  obtain ⟨u, p, k, rfl⟩ : ∃ (u : Fin 1) (p : Fin 512) (k : Fin 128), j = ix3 u p k := ⟨j 0, j 1, j 2, eq_ix3 j⟩
  refine (Blocks.proj_block _ _ _ u p k).trans ?_
  have hu : u.val = 0 := by omega
  obtain ⟨b, s, k', hE, hb, hs, hk⟩ : ∃ (b : Fin 4) (s : Fin 4096) (k' : Fin 128),
      ((cfg0.win 9).blk t).view.emb (ix3 u p k) = ix3 b s k' ∧ b.val = win0_9.index t (0 : Fin 3) * 1 + 1 * u.val
        ∧ s.val = win0_9.index t (1 : Fin 3) * 512 + 1 * p.val ∧ k'.val = win0_9.index t (2 : Fin 3) * 128 + 1 * k.val :=
    ⟨_, _, _, eq_ix3 _, rfl, rfl, rfl⟩
  show _ = LowRank.proj (V c main_arg0) (V c main_arg6) (V c main_v1) (((cfg0.win 9).blk t).view.emb (ix3 u p k))
  rw [hE]
  show _ = LowRank.projC (V c main_arg0) (V c main_arg6) (V c main_v1) b s k'
  unfold LowRank.projC
  refine Finset.sum_congr rfl fun h _ => ?_
  have h0 : iblk0 V c 0 t (ix3 (0 : Fin 1) p h) = V c main_arg0 (ix3 b s h) := by
    show V c main_arg0 (((cfg0.win 0).blk t).view.emb (ix3 (0 : Fin 1) p h)) = _
    refine congrArg _ (funext fun a => Fin.ext ?_)
    match a with
    | ⟨0, _⟩ => show win0_0.index t (0 : Fin 3) * 1 + 1 * 0 = b.val; omega
    | ⟨1, _⟩ => show win0_0.index t (1 : Fin 3) * 512 + 1 * p.val = s.val; omega
    | ⟨2, _⟩ => show win0_0.index t (2 : Fin 3) * 1024 + 1 * h.val = h.val; omega
  have h6 : iblk0 V c 6 t (ix1 h) = V c main_arg6 (ix1 h) := by
    show V c main_arg6 (((cfg0.win 6).blk t).view.emb (ix1 h)) = _
    refine congrArg _ (funext fun a => Fin.ext ?_)
    match a with
    | ⟨0, _⟩ => show win0_6.index t (0 : Fin 1) * 1024 + 1 * h.val = h.val; omega
  have h3 : iblk0 V c 3 t (ix2 k h) = V c main_v1 (ix2 k' h) := by
    show V c main_v1 (((cfg0.win 3).blk t).view.emb (ix2 k h)) = _
    refine congrArg _ (funext fun a => Fin.ext ?_)
    match a with
    | ⟨0, _⟩ => show win0_3.index t (0 : Fin 2) * 128 + 1 * k.val = k'.val; omega
    | ⟨1, _⟩ => show win0_3.index t (1 : Fin 2) * 1024 + 1 * h.val = h.val; omega
  rw [h0, h6, h3]

/-- An index of the output array is in point `t`'s block iff each coordinate is in the block's range on its axis. -/
theorem mem_blk9 (t : Fin cfg0.N) (i : S4x4096x128.Idx) :
    i ∈ ((cfg0.win 9).blk t).view.set ↔ ∀ a : Fin 3, win0_9.index t a * S1x512x128.size a ≤ (i a).val
      ∧ (i a).val < win0_9.index t a * S1x512x128.size a + S1x512x128.size a := by
  show i ∈ ((View.whole main_v8_0).slice (win0_9.rect t)).set ↔ _
  rw [View.set_slice_whole, Rect.mem_set_unit]
  exact Iff.rfl

/-- The blocks tile the output array: row `r` of batch `b` is in the block of the point `(b, r / 512)`. -/
theorem cover9 (i : S4x4096x128.Idx) :
    ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 128 := (i 2).isLt
  obtain ⟨t, ht⟩ := idx_onto9 ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 128 ≤ (i 2).val ∧ (i 2).val < win0_9.index t (2 : Fin 3) * 128 + 128; omega

/-- The output array after the region: the projection of the arrays as the region finds them. -/
theorem final9 (c : Dev nD) :
    (dat0 V c).arrAt 9 cfg0.N = LowRank.proj (V c main_arg0) (V c main_arg6) (V c main_v1) :=
  (dat0 V c).arrAt_eq_of_cover 9 _ (fun t _ => flushed9_eq V c t) cover9

/-! ## Output window 10: the projection of input 1 -/

/-- The index maps over the grid: the input block moves with the output block, the weights and the means are whole. -/
theorem idx_facts10 : ∀ t : Fin cfg0.N,
    win0_1.index t (0 : Fin 3) = win0_10.index t (0 : Fin 3) ∧ win0_1.index t (1 : Fin 3) = win0_10.index t (1 : Fin 3)
    ∧ win0_1.index t (2 : Fin 3) = 0 ∧ win0_10.index t (2 : Fin 3) = 0
    ∧ win0_4.index t (0 : Fin 2) = 0 ∧ win0_4.index t (1 : Fin 2) = 0 ∧ win0_7.index t (0 : Fin 1) = 0
    ∧ win0_10.index t (0 : Fin 3) ≤ 3 ∧ win0_10.index t (1 : Fin 3) ≤ 7 :=
  (by decide +kernel : ∀ t : Fin grid0.N, _)

/-- Every block of the output array is some point's. -/
theorem idx_onto10 : ∀ (q0 : Fin 4) (q1 : Fin 8), ∃ t : Fin cfg0.N, win0_10.index t = ![q0.val, q1.val, 0] :=
  (by decide +kernel : ∀ (q0 : Fin 4) (q1 : Fin 8), ∃ t : Fin grid0.N, win0_10.index t = ![q0.val, q1.val, 0])

/-- What point `t` writes back is block `t` of the projection of the arrays as the region finds them: rows
    `512 t₁ … 512 t₁ + 511` of batch `t₀` of the input against all weight rows. -/
theorem flushed10_eq (c : Dev nD) (t : Fin cfg0.N) :
    (dat0 V c).flushed 10 t = ((cfg0.win 10).blk t).view.read (Elt Ideal)
      (LowRank.proj (V c main_arg1) (V c main_arg7) (V c main_v3)) := by
  show (cfg0.win 10).cut (grid0.coords t) ((dat0 V c).after 10 t) = _
  rw [after0_10]
  unfold out0_10
  rw [View.canon_unit_zero hz3]
  simp only [View.ld_unit_zero (S := S1x512x1024) hz3, View.ld_unit_zero (S := S1024) hz1, View.ld_unit_zero (S := S128x1024) hz2]
  obtain ⟨e0, e1, e2, e3, e4, e5, e6, e7, e8⟩ := idx_facts10 t
  funext j
  obtain ⟨u, p, k, rfl⟩ : ∃ (u : Fin 1) (p : Fin 512) (k : Fin 128), j = ix3 u p k := ⟨j 0, j 1, j 2, eq_ix3 j⟩
  refine (congrFun (Blocks.pay3_eq _ _ _) _).trans ((Blocks.proj_block _ _ _ u p k).trans ?_)
  have hu : u.val = 0 := by omega
  obtain ⟨b, s, k', hE, hb, hs, hk⟩ : ∃ (b : Fin 4) (s : Fin 4096) (k' : Fin 128),
      ((cfg0.win 10).blk t).view.emb (ix3 u p k) = ix3 b s k' ∧ b.val = win0_10.index t (0 : Fin 3) * 1 + 1 * u.val
        ∧ s.val = win0_10.index t (1 : Fin 3) * 512 + 1 * p.val ∧ k'.val = win0_10.index t (2 : Fin 3) * 128 + 1 * k.val :=
    ⟨_, _, _, eq_ix3 _, rfl, rfl, rfl⟩
  show _ = LowRank.proj (V c main_arg1) (V c main_arg7) (V c main_v3) (((cfg0.win 10).blk t).view.emb (ix3 u p k))
  rw [hE]
  show _ = LowRank.projC (V c main_arg1) (V c main_arg7) (V c main_v3) b s k'
  unfold LowRank.projC
  refine Finset.sum_congr rfl fun h _ => ?_
  have h0 : iblk0 V c 1 t (ix3 (0 : Fin 1) p h) = V c main_arg1 (ix3 b s h) := by
    show V c main_arg1 (((cfg0.win 1).blk t).view.emb (ix3 (0 : Fin 1) p h)) = _
    refine congrArg _ (funext fun a => Fin.ext ?_)
    match a with
    | ⟨0, _⟩ => show win0_1.index t (0 : Fin 3) * 1 + 1 * 0 = b.val; omega
    | ⟨1, _⟩ => show win0_1.index t (1 : Fin 3) * 512 + 1 * p.val = s.val; omega
    | ⟨2, _⟩ => show win0_1.index t (2 : Fin 3) * 1024 + 1 * h.val = h.val; omega
  have h6 : iblk0 V c 7 t (ix1 h) = V c main_arg7 (ix1 h) := by
    show V c main_arg7 (((cfg0.win 7).blk t).view.emb (ix1 h)) = _
    refine congrArg _ (funext fun a => Fin.ext ?_)
    match a with
    | ⟨0, _⟩ => show win0_7.index t (0 : Fin 1) * 1024 + 1 * h.val = h.val; omega
  have h3 : iblk0 V c 4 t (ix2 k h) = V c main_v3 (ix2 k' h) := by
    show V c main_v3 (((cfg0.win 4).blk t).view.emb (ix2 k h)) = _
    refine congrArg _ (funext fun a => Fin.ext ?_)
    match a with
    | ⟨0, _⟩ => show win0_4.index t (0 : Fin 2) * 128 + 1 * k.val = k'.val; omega
    | ⟨1, _⟩ => show win0_4.index t (1 : Fin 2) * 1024 + 1 * h.val = h.val; omega
  rw [h0, h6, h3]

/-- An index of the output array is in point `t`'s block iff each coordinate is in the block's range on its axis. -/
theorem mem_blk10 (t : Fin cfg0.N) (i : S4x4096x128.Idx) :
    i ∈ ((cfg0.win 10).blk t).view.set ↔ ∀ a : Fin 3, win0_10.index t a * S1x512x128.size a ≤ (i a).val
      ∧ (i a).val < win0_10.index t a * S1x512x128.size a + S1x512x128.size a := by
  show i ∈ ((View.whole main_v8_1).slice (win0_10.rect t)).set ↔ _
  rw [View.set_slice_whole, Rect.mem_set_unit]
  exact Iff.rfl

/-- The blocks tile the output array: row `r` of batch `b` is in the block of the point `(b, r / 512)`. -/
theorem cover10 (i : S4x4096x128.Idx) :
    ∃ t : Fin cfg0.N, (cfg0.win 10).flush t = true ∧ i ∈ ((cfg0.win 10).blk t).view.set := by
  have hi0 : (i 0).val < 4 := (i 0).isLt
  have hi1 : (i 1).val < 4096 := (i 1).isLt
  have hi2 : (i 2).val < 128 := (i 2).isLt
  obtain ⟨t, ht⟩ := idx_onto10 ⟨(i 0).val, hi0⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 128 ≤ (i 2).val ∧ (i 2).val < win0_10.index t (2 : Fin 3) * 128 + 128; omega

/-- The output array after the region: the projection of the arrays as the region finds them. -/
theorem final10 (c : Dev nD) :
    (dat0 V c).arrAt 10 cfg0.N = LowRank.proj (V c main_arg1) (V c main_arg7) (V c main_v3) :=
  (dat0 V c).arrAt_eq_of_cover 10 _ (fun t _ => flushed10_eq V c t) cover10

/-! ## Output window 11: the projection of input 2 -/

/-- The index maps over the grid: the input block moves with the output block, the weights and the means are whole. -/
theorem idx_facts11 : ∀ t : Fin cfg0.N,
    win0_2.index t (0 : Fin 3) = win0_11.index t (0 : Fin 3) ∧ win0_2.index t (1 : Fin 3) = win0_11.index t (1 : Fin 3)
    ∧ win0_2.index t (2 : Fin 3) = 0 ∧ win0_11.index t (2 : Fin 3) = 0
    ∧ win0_5.index t (0 : Fin 2) = 0 ∧ win0_5.index t (1 : Fin 2) = 0 ∧ win0_8.index t (0 : Fin 1) = 0
    ∧ win0_11.index t (0 : Fin 3) ≤ 3 ∧ win0_11.index t (1 : Fin 3) ≤ 7 :=
  (by decide +kernel : ∀ t : Fin grid0.N, _)

/-- Every block of the output array is some point's. -/
theorem idx_onto11 : ∀ (q0 : Fin 4) (q1 : Fin 8), ∃ t : Fin cfg0.N, win0_11.index t = ![q0.val, q1.val, 0] :=
  (by decide +kernel : ∀ (q0 : Fin 4) (q1 : Fin 8), ∃ t : Fin grid0.N, win0_11.index t = ![q0.val, q1.val, 0])

/-- What point `t` writes back is block `t` of the projection of the arrays as the region finds them: rows
    `512 t₁ … 512 t₁ + 511` of batch `t₀` of the input against all weight rows. -/
theorem flushed11_eq (c : Dev nD) (t : Fin cfg0.N) :
    (dat0 V c).flushed 11 t = ((cfg0.win 11).blk t).view.read (Elt Ideal)
      (LowRank.proj (V c main_arg2) (V c main_arg8) (V c main_v5)) := by
  show (cfg0.win 11).cut (grid0.coords t) ((dat0 V c).after 11 t) = _
  rw [after0_11]
  unfold out0_11
  rw [View.canon_unit_zero hz3]
  simp only [View.ld_unit_zero (S := S1x512x1024) hz3, View.ld_unit_zero (S := S1024) hz1, View.ld_unit_zero (S := S128x1024) hz2]
  obtain ⟨e0, e1, e2, e3, e4, e5, e6, e7, e8⟩ := idx_facts11 t
  funext j
  obtain ⟨u, p, k, rfl⟩ : ∃ (u : Fin 1) (p : Fin 512) (k : Fin 128), j = ix3 u p k := ⟨j 0, j 1, j 2, eq_ix3 j⟩
  refine (congrFun (Blocks.pay1_eq _ _ _) _).trans ((Blocks.proj_block _ _ _ u p k).trans ?_)
  have hu : u.val = 0 := by omega
  obtain ⟨b, s, k', hE, hb, hs, hk⟩ : ∃ (b : Fin 4) (s : Fin 4096) (k' : Fin 128),
      ((cfg0.win 11).blk t).view.emb (ix3 u p k) = ix3 b s k' ∧ b.val = win0_11.index t (0 : Fin 3) * 1 + 1 * u.val
        ∧ s.val = win0_11.index t (1 : Fin 3) * 512 + 1 * p.val ∧ k'.val = win0_11.index t (2 : Fin 3) * 128 + 1 * k.val :=
    ⟨_, _, _, eq_ix3 _, rfl, rfl, rfl⟩
  show _ = LowRank.proj (V c main_arg2) (V c main_arg8) (V c main_v5) (((cfg0.win 11).blk t).view.emb (ix3 u p k))
  rw [hE]
  show _ = LowRank.projC (V c main_arg2) (V c main_arg8) (V c main_v5) b s k'
  unfold LowRank.projC
  refine Finset.sum_congr rfl fun h _ => ?_
  have h0 : iblk0 V c 2 t (ix3 (0 : Fin 1) p h) = V c main_arg2 (ix3 b s h) := by
    show V c main_arg2 (((cfg0.win 2).blk t).view.emb (ix3 (0 : Fin 1) p h)) = _
    refine congrArg _ (funext fun a => Fin.ext ?_)
    match a with
    | ⟨0, _⟩ => show win0_2.index t (0 : Fin 3) * 1 + 1 * 0 = b.val; omega
    | ⟨1, _⟩ => show win0_2.index t (1 : Fin 3) * 512 + 1 * p.val = s.val; omega
    | ⟨2, _⟩ => show win0_2.index t (2 : Fin 3) * 1024 + 1 * h.val = h.val; omega
  have h6 : iblk0 V c 8 t (ix1 h) = V c main_arg8 (ix1 h) := by
    show V c main_arg8 (((cfg0.win 8).blk t).view.emb (ix1 h)) = _
    refine congrArg _ (funext fun a => Fin.ext ?_)
    match a with
    | ⟨0, _⟩ => show win0_8.index t (0 : Fin 1) * 1024 + 1 * h.val = h.val; omega
  have h3 : iblk0 V c 5 t (ix2 k h) = V c main_v5 (ix2 k' h) := by
    show V c main_v5 (((cfg0.win 5).blk t).view.emb (ix2 k h)) = _
    refine congrArg _ (funext fun a => Fin.ext ?_)
    match a with
    | ⟨0, _⟩ => show win0_5.index t (0 : Fin 2) * 128 + 1 * k.val = k'.val; omega
    | ⟨1, _⟩ => show win0_5.index t (1 : Fin 2) * 1024 + 1 * h.val = h.val; omega
  rw [h0, h6, h3]

/-- An index of the output array is in point `t`'s block iff each coordinate is in the block's range on its axis. -/
theorem mem_blk11 (t : Fin cfg0.N) (i : S4x4096x128.Idx) :
    i ∈ ((cfg0.win 11).blk t).view.set ↔ ∀ a : Fin 3, win0_11.index t a * S1x512x128.size a ≤ (i a).val
      ∧ (i a).val < win0_11.index t a * S1x512x128.size a + S1x512x128.size a := by
  show i ∈ ((View.whole main_v8_2).slice (win0_11.rect t)).set ↔ _
  rw [View.set_slice_whole, Rect.mem_set_unit]
  exact Iff.rfl

/-- The blocks tile the output array: row `r` of batch `b` is in the block of the point `(b, r / 512)`. -/
theorem cover11 (i : S4x4096x128.Idx) :
    ∃ t : Fin cfg0.N, (cfg0.win 11).flush t = true ∧ i ∈ ((cfg0.win 11).blk t).view.set := by
  have hi0 : (i 0).val < 4 := (i 0).isLt
  have hi1 : (i 1).val < 4096 := (i 1).isLt
  have hi2 : (i 2).val < 128 := (i 2).isLt
  obtain ⟨t, ht⟩ := idx_onto11 ⟨(i 0).val, hi0⟩ ⟨(i 1).val / 512, by omega⟩
  have q0 : win0_11.index t (0 : Fin 3) = (i 0).val := congrFun ht 0
  have q1 : win0_11.index t (1 : Fin 3) = (i 1).val / 512 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 128 ≤ (i 2).val ∧ (i 2).val < win0_11.index t (2 : Fin 3) * 128 + 128; omega

/-- The output array after the region: the projection of the arrays as the region finds them. -/
theorem final11 (c : Dev nD) :
    (dat0 V c).arrAt 11 cfg0.N = LowRank.proj (V c main_arg2) (V c main_arg8) (V c main_v5) :=
  (dat0 V c).arrAt_eq_of_cover 11 _ (fun t _ => flushed11_eq V c t) cover11

end Cert.KernelIdeal.RegionValue

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.AttnBlock.lean ====
/-
  One chunk of 256 query rows of the attention body, read at an entry.

  The chunk's scores are the products of the 256 projected query rows with all 4096 projected key rows (both
  contracted along their 128 coordinates), scaled by the word of 1/8. Each row of scores is turned into weights: the
  row's maximum is taken, kept as a column and spread back over the row, subtracted, the exponential taken, the
  exponentials of the row summed, kept as a column and spread back, and divided by. That is the softmax of the row
  (`LowRank.softRow`). The weights are stored, and also multiplied by the 4096 projected value rows, the result by the
  output weight rows (contracted along the 128 coordinates), and the bias row added.
-/
import proofs.«177251_j40862318854763_2_alg».proof.Proof.Gen.KernelIdeal.Skeleton
import proofs.«177251_j40862318854763_2_alg».proof.Proof.LibMatProductT
import proofs.«177251_j40862318854763_2_alg».proof.Proof.LibMatProduct
import proofs.«177251_j40862318854763_2_alg».proof.Proof.LibKeepdims
import proofs.«177251_j40862318854763_2_alg».proof.Proof.LibRowReduce
import proofs.«177251_j40862318854763_2_alg».proof.Proof.AttnSpec
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx

/-! ## A matrix of scores turned into weights, row by row -/

/-- Each row's maximum, spread back over the row. -/
def topCol (M : FVec Ideal S256x4096 .f32) : FVec Ideal S256x4096 .f32 :=
  broadcastTo S256x4096 (shapeCast S256x1 (multiReduction .maximumf [1] S256 M 0xFF800000#32 reduces_S256x4096_S256 (.inl rfl) rfl)
    shapeCasts_S256_S256x1) broadcasts_S256x1_S256x4096

/-- The exponentials of the entries less their row's maximum. -/
def expo (M : FVec Ideal S256x4096 .f32) : FVec Ideal S256x4096 .f32 := exp (subf M (topCol M))

/-- Each row's sum of exponentials, spread back over the row. -/
def sumCol (M : FVec Ideal S256x4096 .f32) : FVec Ideal S256x4096 .f32 :=
  broadcastTo S256x4096 (shapeCast S256x1 (multiReduction .add [1] S256 (expo M) 0x00000000#32 reduces_S256x4096_S256 (.inl rfl) rfl)
    shapeCasts_S256_S256x1) broadcasts_S256x1_S256x4096

/-- The weights. -/
def soft (M : FVec Ideal S256x4096 .f32) : FVec Ideal S256x4096 .f32 := divf (expo M) (sumCol M)

theorem topCol_apply (M : FVec Ideal S256x4096 .f32) (p : Fin 256) (s : Fin 4096) :
    topCol M (ix2 p s) = LowRank.rowTop (fun c => M (ix2 p c)) :=
  (LibKeepdims.broadcastTo_a1_ab_apply _ _ p s).trans
    ((LibKeepdims.shapeCast_a_a1_apply _ _ p 0).trans (LibRowReduce.rowMax_apply M _ _ _ _ p))

theorem expo_apply (M : FVec Ideal S256x4096 .f32) (p : Fin 256) (s : Fin 4096) :
    expo M (ix2 p s) = Ideal.exp (M (ix2 p s) - LowRank.rowTop (fun c => M (ix2 p c))) := by
  show Ideal.exp (M (ix2 p s) - topCol M (ix2 p s)) = _
  rw [topCol_apply]

theorem sumCol_apply (M : FVec Ideal S256x4096 .f32) (p : Fin 256) (s : Fin 4096) :
    sumCol M (ix2 p s) = ∑ c : Fin 4096, Ideal.exp (M (ix2 p c) - LowRank.rowTop (fun c' => M (ix2 p c'))) :=
  (LibKeepdims.broadcastTo_a1_ab_apply _ _ p s).trans
    ((LibKeepdims.shapeCast_a_a1_apply _ _ p 0).trans
      ((LibRowReduce.rowSum_apply (expo M) _ _ _ _ p).trans (Finset.sum_congr rfl fun c _ => expo_apply M p c)))

/-- Entry `(p, s)` of the weights is the softmax of row `p` at `s`. -/
theorem soft_apply (M : FVec Ideal S256x4096 .f32) (p : Fin 256) (s : Fin 4096) :
    soft M (ix2 p s) = LowRank.softRow (fun c => M (ix2 p c)) s := by
  show Ideal.div (expo M (ix2 p s)) (sumCol M (ix2 p s)) = _
  rw [expo_apply, sumCol_apply]
  rfl

/-! ## The chunk's scores -/

/-- The scaled products of the chunk's query rows with the key rows. -/
def scoresBlk (kk : Vec Ideal S1x4096x128 .bf16) (q : Vec Ideal S1x256x128 .bf16) : FVec Ideal S256x4096 .f32 :=
  mulf (matmul dot_S256x128_S4096x128_S256x4096_1_1_0_0_n_n none
      (shapeCast S256x128 q shapeCasts_S1x256x128_S256x128 : FVec Ideal S256x128 .bf16)
      (k1_pay5 kk) (constant S256x4096 .f32 0x00000000#32))
    (broadcast S256x4096 (Scalar.ofBits .f32 0x3E000000#32))

theorem scoresBlk_apply (kk : Vec Ideal S1x4096x128 .bf16) (q : Vec Ideal S1x256x128 .bf16) (p : Fin 256) (s : Fin 4096) :
    scoresBlk kk q (ix2 p s)
      = (∑ j : Fin 128, q (ix3 (0 : Fin 1) p j) * kk (ix3 (0 : Fin 1) s j)) * Ideal.ofBits .f32 0x3E000000#32 := by
  show (matmul dot_S256x128_S4096x128_S256x4096_1_1_0_0_n_n none
      (shapeCast S256x128 q shapeCasts_S1x256x128_S256x128 : FVec Ideal S256x128 .bf16)
      (k1_pay5 kk) (constant S256x4096 .f32 0x00000000#32)) (ix2 p s) * Ideal.ofBits .f32 0x3E000000#32 = _
  refine congrArg (· * _) ?_
  refine (LibMatProductT.matmul_rowsT_zero_apply dot_S256x128_S4096x128_S256x4096_1_1_0_0_n_n none rfl rfl rfl rfl rfl rfl _ _ p s).trans ?_
  refine Finset.sum_congr rfl fun j _ => ?_
  have e1 : shapeCast S256x128 q shapeCasts_S1x256x128_S256x128 (ix2 p j) = q (ix3 (0 : Fin 1) p j) :=
    shapeCast_1ab_ab_apply q _ p j
  have e2 : k1_pay5 kk (ix2 s j) = kk (ix3 (0 : Fin 1) s j) := shapeCast_1ab_ab_apply kk _ s j
  rw [e1, e2]

/-- The weights of the chunk, as the body computes them. -/
theorem pay8_eq (kk : Vec Ideal S1x4096x128 .bf16) (q : Vec Ideal S1x256x128 .bf16) :
    k1_pay8 (F := Ideal) kk q = soft (scoresBlk kk q) := rfl

/-- The row of scaled scores of query row `p` of the chunk. -/
def scoreRow (kk : Vec Ideal S1x4096x128 .bf16) (q : Vec Ideal S1x256x128 .bf16) (p : Fin 256) : Fin 4096 → EReal :=
  fun c => (∑ j : Fin 128, q (ix3 (0 : Fin 1) p j) * kk (ix3 (0 : Fin 1) c j)) * Ideal.ofBits .f32 0x3E000000#32

theorem pay8_apply (kk : Vec Ideal S1x4096x128 .bf16) (q : Vec Ideal S1x256x128 .bf16) (p : Fin 256) (s : Fin 4096) :
    k1_pay8 (F := Ideal) kk q (ix2 p s) = LowRank.softRow (scoreRow kk q p) s := by
  rw [pay8_eq, soft_apply]
  exact congrArg (fun f => LowRank.softRow f s) (funext fun c => scoresBlk_apply kk q p c)

/-- The stored weights of the chunk at `(p, s)`. -/
theorem attn_block (kk : Vec Ideal S1x4096x128 .bf16) (q : Vec Ideal S1x256x128 .bf16) (u : Fin 1) (p : Fin 256) (s : Fin 4096) :
    k1_pay9 (F := Ideal) kk q (ix3 u p s) = LowRank.softRow (scoreRow kk q p) s :=
  (shapeCast_ab_1ab_apply _ _ u p s).trans (pay8_apply kk q p s)

/-- The second chunk's stored weights are the same body over the second chunk's query rows. -/
theorem pay3_eq9 (kk : Vec Ideal S1x4096x128 .bf16) (q : Vec Ideal S1x256x128 .bf16) :
    k1_pay3 (F := Ideal) (k1_pay5 kk) q = k1_pay9 (F := Ideal) kk q := rfl

/-! ## The chunk's output rows -/

theorem pay10_apply (kk vv : Vec Ideal S1x4096x128 .bf16) (wo : Vec Ideal S1024x128 .bf16) (bo : Vec Ideal S1024 .f32)
    (q : Vec Ideal S1x256x128 .bf16) (p : Fin 256) (h : Fin 1024) :
    k1_pay10 (F := Ideal) kk vv wo bo q (ix2 p h)
      = (∑ k : Fin 128, (∑ s : Fin 4096, LowRank.softRow (scoreRow kk q p) s * vv (ix3 (0 : Fin 1) s k)) * wo (ix2 h k))
        + bo (ix1 h) := by
  unfold k1_pay10
  show (matmul dot_S256x128_S1024x128_S256x1024_1_1_0_0_n_n none
        (truncf .bf16 (matmul dot_S256x4096_S4096x128_S256x128_1_0_0_1_n_n none (truncf .bf16 (k1_pay8 kk q) bitsLt_bf16_f32) (k1_pay6 vv)
          (constant S256x128 .f32 0x00000000#32)) bitsLt_bf16_f32) (k1_pay7 wo) (constant S256x1024 .f32 0x00000000#32)) (ix2 p h)
      + (broadcastTo S256x1024 (shapeCast S1x1024 bo shapeCasts_S1024_S1x1024) broadcasts_S1x1024_S256x1024) (ix2 p h) = _
  have eb : (broadcastTo S256x1024 (shapeCast S1x1024 bo shapeCasts_S1024_S1x1024) broadcasts_S1x1024_S256x1024) (ix2 p h) = bo (ix1 h) :=
    (broadcastTo_1b_ab_apply _ _ p h).trans (shapeCast_a_1a_apply bo _ 0 h)
  rw [eb]
  refine congrArg (· + _) ?_
  refine (LibMatProductT.matmul_rowsT_zero_apply dot_S256x128_S1024x128_S256x1024_1_1_0_0_n_n none rfl rfl rfl rfl rfl rfl _ _ p h).trans ?_
  refine Finset.sum_congr rfl fun k _ => ?_
  have ew : k1_pay7 wo (ix2 h k) = wo (ix2 h k) := congrFun (shapeCast_self wo _) _
  rw [ew]
  refine congrArg (· * _) ?_
  show (matmul dot_S256x4096_S4096x128_S256x128_1_0_0_1_n_n none (truncf .bf16 (k1_pay8 kk q) bitsLt_bf16_f32) (k1_pay6 vv)
          (constant S256x128 .f32 0x00000000#32)) (ix2 p k) = _
  refine (LibMatProduct.matmul_zero_apply dot_S256x4096_S4096x128_S256x128_1_0_0_1_n_n none rfl rfl rfl rfl rfl rfl _ _ p k).trans ?_
  refine Finset.sum_congr rfl fun s _ => ?_
  have ev : k1_pay6 vv (ix2 s k) = vv (ix3 (0 : Fin 1) s k) := shapeCast_1ab_ab_apply vv _ s k
  have ea : (truncf .bf16 (k1_pay8 kk q) bitsLt_bf16_f32 : FVec Ideal S256x4096 .bf16) (ix2 p s) = LowRank.softRow (scoreRow kk q p) s :=
    pay8_apply kk q p s
  rw [ea, ev]

/-- The stored output rows of the chunk at `(p, h)`. -/
theorem out_block (kk vv : Vec Ideal S1x4096x128 .bf16) (wo : Vec Ideal S1024x128 .bf16) (bo : Vec Ideal S1024 .f32)
    (q : Vec Ideal S1x256x128 .bf16) (u : Fin 1) (p : Fin 256) (h : Fin 1024) :
    k1_pay1 (F := Ideal) (k1_pay10 kk vv wo bo q) (ix3 u p h)
      = (∑ k : Fin 128, (∑ s : Fin 4096, LowRank.softRow (scoreRow kk q p) s * vv (ix3 (0 : Fin 1) s k)) * wo (ix2 h k))
        + bo (ix1 h) :=
  (shapeCast_ab_1ab_apply _ _ u p h).trans (pay10_apply kk vv wo bo q p h)

/-- The second chunk's stored output rows are the same body over the second chunk's query rows. -/
theorem pay4_eq (kk vv : Vec Ideal S1x4096x128 .bf16) (wo : Vec Ideal S1024x128 .bf16) (bo : Vec Ideal S1024 .f32)
    (q : Vec Ideal S1x256x128 .bf16) :
    k1_pay4 (F := Ideal) (k1_pay5 kk) (k1_pay6 vv) (k1_pay7 wo) bo q = k1_pay1 (F := Ideal) (k1_pay10 kk vv wo bo q) := rfl

end Cert.KernelIdeal.Blocks

end
-- ==== Proof.Region1Blocks.lean ====
/-
  What the attention body leaves in its two output buffers, as functions of its input blocks.

  The body handles its 512 query rows as two chunks of 256 (rows 0–255, then rows 256–511), the same computation on
  each: a chunk's rows of weights and of outputs depend on the chunk's own query rows and on all the key rows, value
  rows, output weights and the bias. Row `r` of the weights buffer is therefore the softmax of the scaled scores of
  query row `r` against every key row, whichever chunk `r` is in, and row `r` of the output buffer is the mix of
  value rows by those weights, against the output weight rows, plus the bias.
-/
import proofs.«177251_j40862318854763_2_alg».proof.Proof.Gen.KernelIdeal.Frame
import proofs.«177251_j40862318854763_2_alg».proof.Proof.AttnBlock

set_option maxRecDepth 16384

noncomputable section

namespace Cert.KernelIdeal.Blocks

open Cert.KernelIdeal Cert.KernelIdeal.Gen Idealize.ShloMosaic Idealize.ShloMosaic.ValueIdx

theorem z3 : (![0, 0, 0] : Fin 3 → Nat) = fun _ => 0 := funext fun a => by fin_cases a <;> rfl
theorem z2 : (![0, 0] : Fin 2 → Nat) = fun _ => 0 := funext fun a => by fin_cases a <;> rfl
theorem z1 : (![0] : Fin 1 → Nat) = fun _ => 0 := funext fun a => by fin_cases a <;> rfl

/-- The scaled scores of query row `r` of the block against every key row. -/
def blockScores (q : Vec Ideal S1x512x128 .bf16) (kk : Vec Ideal S1x4096x128 .bf16) (r : Fin 512) : Fin 4096 → EReal :=
  fun c => (∑ j : Fin 128, q (ix3 (0 : Fin 1) r j) * kk (ix3 (0 : Fin 1) c j)) * Ideal.ofBits .f32 0x3E000000#32

/-- The weights of query row `r` of the block. -/
def attnBlkC (q : Vec Ideal S1x512x128 .bf16) (kk : Vec Ideal S1x4096x128 .bf16) (r : Fin 512) (s : Fin 4096) : EReal :=
  LowRank.softRow (blockScores q kk r) s

def attnBlk (q : Vec Ideal S1x512x128 .bf16) (kk : Vec Ideal S1x4096x128 .bf16) : Vec Ideal S1x512x4096 .f32 :=
  fun y => attnBlkC q kk (y 1) (y 2)

/-- The output entries of query row `r` of the block. -/
def outBlkC (q : Vec Ideal S1x512x128 .bf16) (kk vv : Vec Ideal S1x4096x128 .bf16) (wo : Vec Ideal S1024x128 .bf16)
    (bo : Vec Ideal S1024 .f32) (r : Fin 512) (h : Fin 1024) : EReal :=
  (∑ k : Fin 128, (∑ s : Fin 4096, attnBlkC q kk r s * vv (ix3 (0 : Fin 1) s k)) * wo (ix2 h k)) + bo (ix1 h)

def outBlk (q : Vec Ideal S1x512x128 .bf16) (kk vv : Vec Ideal S1x4096x128 .bf16) (wo : Vec Ideal S1024x128 .bf16)
    (bo : Vec Ideal S1024 .f32) : Vec Ideal S1x512x1024 .f32 :=
  fun y => outBlkC q kk vv wo bo (y 1) (y 2)

/-- A chunk's rows of scores are the block's rows of scores at the chunk's offset. -/
theorem chunk_scores (q : Vec Ideal S1x512x128 .bf16) (kk : Vec Ideal S1x4096x128 .bf16) (o : Nat)
    (inb : ∀ a, (![0, o, 0] : Fin 3 → Nat) a + S1x256x128.size a ≤ S1x512x128.size a)
    (p : Fin 256) (r : Fin 512) (hr : r.val = o + 1 * p.val) :
    scoreRow kk (View.ld q (Rect.unit (s := S1x512x128) ![0, o, 0] S1x256x128.size inb)) p = blockScores q kk r := by
  funext c
  unfold scoreRow blockScores
  refine congrArg (· * _) (Finset.sum_congr rfl fun j _ => congrArg (· * _) ?_)
  show q ((Rect.unit (s := S1x512x128) ![0, o, 0] S1x256x128.size inb).idx (ix3 (0 : Fin 1) p j)) = q (ix3 (0 : Fin 1) r j)
  refine congrArg q (funext fun a => Fin.ext ?_)
  match a with
  | ⟨0, _⟩ => show 0 + 1 * 0 = 0; omega
  | ⟨1, _⟩ => show o + 1 * p.val = r.val; omega
  | ⟨2, _⟩ => show 0 + 1 * j.val = j.val; omega

/-- The weights buffer after the body. -/
theorem out1_6_eq (x0 : Vec Ideal S1x512x128 .bf16) (x1 x2 : Vec Ideal S1x4096x128 .bf16) (x3 : Vec Ideal S1024x128 .bf16)
    (x4 : Vec Ideal S1024 .f32) : out1_6 x0 x1 x2 x3 x4 = attnBlk x0 x1 := by
  funext y
  unfold out1_6
  refine View.canon_apply_of_pieces (attnBlk x0 x1) _ ?_ y (cover1_6 _ _ y)
  intro pc hpc x
  simp only [View.ld_unit_zero (S := S1x4096x128) z3] at hpc
  rcases List.mem_cons.mp hpc with rfl | hpc
  · obtain ⟨u, p, s, rfl⟩ : ∃ (u : Fin 1) (p : Fin 256) (s : Fin 4096), x = ix3 u p s := ⟨x 0, x 1, x 2, eq_ix3 x⟩
    obtain ⟨u', r, s', hE, hr, hs⟩ : ∃ (u' : Fin 1) (r : Fin 512) (s' : Fin 4096),
        r1_7.emb (ix3 u p s) = ix3 u' r s' ∧ r.val = 256 + 1 * p.val ∧ s'.val = 0 + 1 * s.val :=
      ⟨_, _, _, eq_ix3 _, rfl, rfl⟩
    show k1_pay3 (k1_pay5 x1) (View.ld x0 r1_6) (ix3 u p s) = attnBlk x0 x1 (r1_7.emb (ix3 u p s))
    rw [hE]
    refine (congrFun (pay3_eq9 x1 _) _).trans ((attn_block x1 _ u p s).trans ?_)
    show _ = LowRank.softRow (blockScores x0 x1 r) s'
    have es : s = s' := Fin.ext (by omega)
    rw [chunk_scores x0 x1 256 _ p r hr, es]
  · rcases List.mem_cons.mp hpc with rfl | hpc
    · obtain ⟨u, p, s, rfl⟩ : ∃ (u : Fin 1) (p : Fin 256) (s : Fin 4096), x = ix3 u p s := ⟨x 0, x 1, x 2, eq_ix3 x⟩
      obtain ⟨u', r, s', hE, hr, hs⟩ : ∃ (u' : Fin 1) (r : Fin 512) (s' : Fin 4096),
          r1_4.emb (ix3 u p s) = ix3 u' r s' ∧ r.val = 0 + 1 * p.val ∧ s'.val = 0 + 1 * s.val :=
        ⟨_, _, _, eq_ix3 _, rfl, rfl⟩
      show k1_pay9 x1 (View.ld x0 r1_3) (ix3 u p s) = attnBlk x0 x1 (r1_4.emb (ix3 u p s))
      rw [hE]
      refine (attn_block x1 _ u p s).trans ?_
      show _ = LowRank.softRow (blockScores x0 x1 r) s'
      have es : s = s' := Fin.ext (by omega)
      rw [chunk_scores x0 x1 0 _ p r hr, es]
    · exact absurd hpc List.not_mem_nil

/-- A chunk's output rows from the block's. -/
theorem chunk_out (q : Vec Ideal S1x512x128 .bf16) (kk vv : Vec Ideal S1x4096x128 .bf16) (wo : Vec Ideal S1024x128 .bf16)
    (bo : Vec Ideal S1024 .f32) (o : Nat)
    (inb : ∀ a, (![0, o, 0] : Fin 3 → Nat) a + S1x256x128.size a ≤ S1x512x128.size a)
    (u : Fin 1) (p : Fin 256) (h : Fin 1024) (r : Fin 512) (hr : r.val = o + 1 * p.val) :
    k1_pay1 (F := Ideal) (k1_pay10 kk vv wo bo (View.ld q (Rect.unit (s := S1x512x128) ![0, o, 0] S1x256x128.size inb))) (ix3 u p h)
      = outBlkC q kk vv wo bo r h := by
  refine (out_block kk vv wo bo _ u p h).trans ?_
  unfold outBlkC attnBlkC
  rw [chunk_scores q kk o inb p r hr]

/-- The output buffer after the body. -/
theorem out1_5_eq (x0 : Vec Ideal S1x512x128 .bf16) (x1 x2 : Vec Ideal S1x4096x128 .bf16) (x3 : Vec Ideal S1024x128 .bf16)
    (x4 : Vec Ideal S1024 .f32) : out1_5 x0 x1 x2 x3 x4 = outBlk x0 x1 x2 x3 x4 := by
  funext y
  unfold out1_5
  refine View.canon_apply_of_pieces (outBlk x0 x1 x2 x3 x4) _ ?_ y (cover1_5 _ _ y)
  intro pc hpc x
  simp only [View.ld_unit_zero (S := S1x4096x128) z3, View.ld_unit_zero (S := S1024x128) z2, View.ld_unit_zero (S := S1024) z1] at hpc
  rcases List.mem_cons.mp hpc with rfl | hpc
  · obtain ⟨u, p, h, rfl⟩ : ∃ (u : Fin 1) (p : Fin 256) (h : Fin 1024), x = ix3 u p h := ⟨x 0, x 1, x 2, eq_ix3 x⟩
    obtain ⟨u', r, h', hE, hr, hh⟩ : ∃ (u' : Fin 1) (r : Fin 512) (h' : Fin 1024),
        r1_8.emb (ix3 u p h) = ix3 u' r h' ∧ r.val = 256 + 1 * p.val ∧ h'.val = 0 + 1 * h.val :=
      ⟨_, _, _, eq_ix3 _, rfl, rfl⟩
    show k1_pay4 (k1_pay5 x1) (k1_pay6 x2) (k1_pay7 x3) x4 (View.ld x0 r1_6) (ix3 u p h) = outBlk x0 x1 x2 x3 x4 (r1_8.emb (ix3 u p h))
    rw [hE]
    refine (congrFun (pay4_eq x1 x2 x3 x4 _) _).trans ?_
    have eh : h = h' := Fin.ext (by omega)
    rw [chunk_out x0 x1 x2 x3 x4 256 _ u p h r hr, eh]
    rfl
  · rcases List.mem_cons.mp hpc with rfl | hpc
    · obtain ⟨u, p, h, rfl⟩ : ∃ (u : Fin 1) (p : Fin 256) (h : Fin 1024), x = ix3 u p h := ⟨x 0, x 1, x 2, eq_ix3 x⟩
      obtain ⟨u', r, h', hE, hr, hh⟩ : ∃ (u' : Fin 1) (r : Fin 512) (h' : Fin 1024),
          r1_5.emb (ix3 u p h) = ix3 u' r h' ∧ r.val = 0 + 1 * p.val ∧ h'.val = 0 + 1 * h.val :=
        ⟨_, _, _, eq_ix3 _, rfl, rfl⟩
      show k1_pay1 (k1_pay10 x1 x2 x3 x4 (View.ld x0 r1_3)) (ix3 u p h) = outBlk x0 x1 x2 x3 x4 (r1_5.emb (ix3 u p h))
      rw [hE]
      have eh : h = h' := Fin.ext (by omega)
      rw [chunk_out x0 x1 x2 x3 x4 0 _ u p h r hr, eh]
      rfl
    · exact absurd hpc List.not_mem_nil

end Cert.KernelIdeal.Blocks

end
-- ==== Proof.Region1Value.lean ====
/-
  The second region (attention and the output projection), as whole arrays.

  The grid is 4 × 8: point `(t₀, t₁)` takes rows `512 t₁ … 512 t₁ + 511` of batch `t₀` of the projected queries, all
  4096 rows of batch `t₀` of the projected keys and values, all the output weights and the bias, and writes back the
  same rows of batch `t₀` of the weights array and of the output array. A block's row is the corresponding row of
  the whole-array formulas (the scores of a query row only involve that row and the batch's key rows), and the 32
  blocks tile each output array.
-/
import proofs.«177251_j40862318854763_2_alg».proof.Proof.Gen.KernelIdeal.Frame
import proofs.«177251_j40862318854763_2_alg».proof.Proof.Region1Blocks
import proofs.«177251_j40862318854763_2_alg».proof.Proof.AttnSpec

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the query block and both output blocks move together; the key and value blocks are
    the point's whole batch; the output weights and the bias are whole. -/
theorem idx_facts1 : ∀ t : Fin cfg1.N,
    win1_0.index t (0 : Fin 3) = win1_6.index t (0 : Fin 3) ∧ win1_0.index t (1 : Fin 3) = win1_6.index t (1 : Fin 3)
    ∧ win1_0.index t (2 : Fin 3) = 0 ∧ win1_6.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 3) = win1_6.index t (0 : Fin 3) ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0
    ∧ win1_5.index t (0 : Fin 3) = win1_6.index t (0 : Fin 3) ∧ win1_5.index t (1 : Fin 3) = win1_6.index t (1 : Fin 3)
    ∧ win1_5.index t (2 : Fin 3) = 0
    ∧ win1_6.index t (0 : Fin 3) ≤ 3 ∧ win1_6.index t (1 : Fin 3) ≤ 7 :=
  (by decide +kernel : ∀ t : Fin grid1.N, _)

/-- The scores of row `p` of point `t`'s query block are the scores of row `r = 512 t₁ + p` of batch `b = t₀`. -/
theorem row_scores (c : Dev nD) (t : Fin cfg1.N) (p : Fin 512) (b : Fin 4) (r : Fin 4096)
    (hb : b.val = win1_6.index t (0 : Fin 3)) (hr : r.val = win1_6.index t (1 : Fin 3) * 512 + p.val) :
    Blocks.blockScores (iblk1 V c 0 t) (iblk1 V c 1 t) p = LowRank.scoreWide (V c main_v8_0) (V c main_v8_1) b r := by
  obtain ⟨e0, e1, e2, e3, e4, e5, e6, e7, e8, e9, e10, e11, e12, e13, e14, e15, e16, e17⟩ := idx_facts1 t
  funext c'
  unfold Blocks.blockScores LowRank.scoreWide
  refine congrArg (· * _) (Finset.sum_congr rfl fun j _ => ?_)
  have hq : iblk1 V c 0 t (ix3 (0 : Fin 1) p j) = V c main_v8_0 (ix3 b r j) := by
    show V c main_v8_0 (((cfg1.win 0).blk t).view.emb (ix3 (0 : Fin 1) p j)) = _
    refine congrArg _ (funext fun a => Fin.ext ?_)
    match a with
    | ⟨0, _⟩ => show win1_0.index t (0 : Fin 3) * 1 + 1 * 0 = b.val; omega
    | ⟨1, _⟩ => show win1_0.index t (1 : Fin 3) * 512 + 1 * p.val = r.val; omega
    | ⟨2, _⟩ => show win1_0.index t (2 : Fin 3) * 128 + 1 * j.val = j.val; omega
  have hk : iblk1 V c 1 t (ix3 (0 : Fin 1) c' j) = V c main_v8_1 (ix3 b c' j) := by
    show V c main_v8_1 (((cfg1.win 1).blk t).view.emb (ix3 (0 : Fin 1) c' j)) = _
    refine congrArg _ (funext fun a => Fin.ext ?_)
    match a with
    | ⟨0, _⟩ => show win1_1.index t (0 : Fin 3) * 1 + 1 * 0 = b.val; omega
    | ⟨1, _⟩ => show win1_1.index t (1 : Fin 3) * 4096 + 1 * c'.val = c'.val; omega
    | ⟨2, _⟩ => show win1_1.index t (2 : Fin 3) * 128 + 1 * j.val = j.val; omega
  rw [hq, hk]

/-! ## Output window 6: the attention weights -/

/-- What point `t` writes back is block `t` of the weights of the arrays as the region finds them. -/
theorem flushed1_6_eq (c : Dev nD) (t : Fin cfg1.N) :
    (dat1 V c).flushed 6 t = ((cfg1.win 6).blk t).view.read (Elt Ideal)
      (LowRank.attnOf (LowRank.scoreWide (V c main_v8_0) (V c main_v8_1))) := by
  show (cfg1.win 6).cut (grid1.coords t) ((dat1 V c).after 6 t) = _
  rw [after1_6, Blocks.out1_6_eq]
  obtain ⟨e0, e1, e2, e3, e4, e5, e6, e7, e8, e9, e10, e11, e12, e13, e14, e15, e16, e17⟩ := idx_facts1 t
  funext j
  obtain ⟨u, p, s, rfl⟩ : ∃ (u : Fin 1) (p : Fin 512) (s : Fin 4096), j = ix3 u p s := ⟨j 0, j 1, j 2, eq_ix3 j⟩
  have hu : u.val = 0 := by omega
  obtain ⟨b, r, s', hE, hb, hr, hs⟩ : ∃ (b : Fin 4) (r : Fin 4096) (s' : Fin 4096),
      ((cfg1.win 6).blk t).view.emb (ix3 u p s) = ix3 b r s' ∧ b.val = win1_6.index t (0 : Fin 3) * 1 + 1 * u.val
        ∧ r.val = win1_6.index t (1 : Fin 3) * 512 + 1 * p.val ∧ s'.val = win1_6.index t (2 : Fin 3) * 4096 + 1 * s.val :=
    ⟨_, _, _, eq_ix3 _, rfl, rfl, rfl⟩
  show Blocks.attnBlk (iblk1 V c 0 t) (iblk1 V c 1 t) (ix3 u p s)
    = LowRank.attnOf (LowRank.scoreWide (V c main_v8_0) (V c main_v8_1)) (((cfg1.win 6).blk t).view.emb (ix3 u p s))
  rw [hE]
  show LowRank.softRow (Blocks.blockScores (iblk1 V c 0 t) (iblk1 V c 1 t) p) s
    = LowRank.softRow (LowRank.scoreWide (V c main_v8_0) (V c main_v8_1) b r) s'
  have es : s = s' := Fin.ext (by omega)
  rw [row_scores V c t p b r (by omega) (by omega), es]

/-- An index of the array is in point `t`'s block iff each coordinate is in the block's range on its axis. -/
theorem mem_blk1_6 (t : Fin cfg1.N) (i : S4x4096x4096.Idx) :
    i ∈ ((cfg1.win 6).blk t).view.set ↔ ∀ a : Fin 3, win1_6.index t a * S1x512x4096.size a ≤ (i a).val
      ∧ (i a).val < win1_6.index t a * S1x512x4096.size a + S1x512x4096.size a := by
  show i ∈ ((View.whole main_v9_1).slice (win1_6.rect t)).set ↔ _
  rw [View.set_slice_whole, Rect.mem_set_unit]
  exact Iff.rfl

/-- Every block of the array is some point's. -/
theorem idx_onto1_6 : ∀ (q0 : Fin 4) (q1 : Fin 8), ∃ t : Fin cfg1.N, win1_6.index t = ![q0.val, q1.val, 0] :=
  (by decide +kernel : ∀ (q0 : Fin 4) (q1 : Fin 8), ∃ t : Fin grid1.N, win1_6.index t = ![q0.val, q1.val, 0])

/-- The blocks tile the array: row `r` of batch `b` is in the block of the point `(b, r / 512)`. -/
theorem cover1_6_arr (i : S4x4096x4096.Idx) :
    ∃ t : Fin cfg1.N, (cfg1.win 6).flush t = true ∧ i ∈ ((cfg1.win 6).blk t).view.set := by
  have hi0 : (i 0).val < 4 := (i 0).isLt
  have hi1 : (i 1).val < 4096 := (i 1).isLt
  have hi2 : (i 2).val < 4096 := (i 2).isLt
  obtain ⟨t, ht⟩ := idx_onto1_6 ⟨(i 0).val, hi0⟩ ⟨(i 1).val / 512, by omega⟩
  have q0 : win1_6.index t (0 : Fin 3) = (i 0).val := congrFun ht 0
  have q1 : win1_6.index t (1 : Fin 3) = (i 1).val / 512 := congrFun ht 1
  have q2 : win1_6.index t (2 : Fin 3) = 0 := congrFun ht 2
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 4096 ≤ (i 2).val ∧ (i 2).val < win1_6.index t (2 : Fin 3) * 4096 + 4096; omega

/-- The weights array after the region. -/
theorem final1_6 (c : Dev nD) :
    (dat1 V c).arrAt 6 cfg1.N = LowRank.attnOf (LowRank.scoreWide (V c main_v8_0) (V c main_v8_1)) :=
  (dat1 V c).arrAt_eq_of_cover 6 _ (fun t _ => flushed1_6_eq V c t) cover1_6_arr

/-! ## Output window 5: the output -/

/-- What point `t` writes back is block `t` of the output of the arrays as the region finds them. -/
theorem flushed1_5_eq (c : Dev nD) (t : Fin cfg1.N) :
    (dat1 V c).flushed 5 t = ((cfg1.win 5).blk t).view.read (Elt Ideal)
      (LowRank.outOf (LowRank.attnOf (LowRank.scoreWide (V c main_v8_0) (V c main_v8_1))) (V c main_v8_2) (V c main_v7) (V c main_arg10)) := by
  show (cfg1.win 5).cut (grid1.coords t) ((dat1 V c).after 5 t) = _
  rw [after1_5, Blocks.out1_5_eq]
  obtain ⟨e0, e1, e2, e3, e4, e5, e6, e7, e8, e9, e10, e11, e12, e13, e14, e15, e16, e17⟩ := idx_facts1 t
  funext j
  obtain ⟨u, p, h, rfl⟩ : ∃ (u : Fin 1) (p : Fin 512) (h : Fin 1024), j = ix3 u p h := ⟨j 0, j 1, j 2, eq_ix3 j⟩
  have hu : u.val = 0 := by omega
  obtain ⟨b, r, h', hE, hb, hr, hh⟩ : ∃ (b : Fin 4) (r : Fin 4096) (h' : Fin 1024),
      ((cfg1.win 5).blk t).view.emb (ix3 u p h) = ix3 b r h' ∧ b.val = win1_5.index t (0 : Fin 3) * 1 + 1 * u.val
        ∧ r.val = win1_5.index t (1 : Fin 3) * 512 + 1 * p.val ∧ h'.val = win1_5.index t (2 : Fin 3) * 1024 + 1 * h.val :=
    ⟨_, _, _, eq_ix3 _, rfl, rfl, rfl⟩
  show Blocks.outBlk (iblk1 V c 0 t) (iblk1 V c 1 t) (iblk1 V c 2 t) (iblk1 V c 3 t) (iblk1 V c 4 t) (ix3 u p h)
    = LowRank.outOf (LowRank.attnOf (LowRank.scoreWide (V c main_v8_0) (V c main_v8_1))) (V c main_v8_2) (V c main_v7) (V c main_arg10)
        (((cfg1.win 5).blk t).view.emb (ix3 u p h))
  rw [hE]
  show Blocks.outBlkC (iblk1 V c 0 t) (iblk1 V c 1 t) (iblk1 V c 2 t) (iblk1 V c 3 t) (iblk1 V c 4 t) p h
    = LowRank.outC (LowRank.attnOf (LowRank.scoreWide (V c main_v8_0) (V c main_v8_1))) (V c main_v8_2) (V c main_v7) (V c main_arg10) b r h'
  have eh : h = h' := Fin.ext (by omega)
  subst eh
  unfold Blocks.outBlkC LowRank.outC LowRank.mixC
  have hrow := row_scores V c t p b r (by omega) (by omega)
  have hbias : iblk1 V c 4 t (ix1 h) = V c main_arg10 (ix1 h) := by
    show V c main_arg10 (((cfg1.win 4).blk t).view.emb (ix1 h)) = _
    refine congrArg _ (funext fun a => Fin.ext ?_)
    match a with
    | ⟨0, _⟩ => show win1_4.index t (0 : Fin 1) * 1024 + 1 * h.val = h.val; omega
  rw [hbias]
  refine congrArg (· + _) (Finset.sum_congr rfl fun k _ => ?_)
  have hw : iblk1 V c 3 t (ix2 h k) = V c main_v7 (ix2 h k) := by
    show V c main_v7 (((cfg1.win 3).blk t).view.emb (ix2 h k)) = _
    refine congrArg _ (funext fun a => Fin.ext ?_)
    match a with
    | ⟨0, _⟩ => show win1_3.index t (0 : Fin 2) * 1024 + 1 * h.val = h.val; omega
    | ⟨1, _⟩ => show win1_3.index t (1 : Fin 2) * 128 + 1 * k.val = k.val; omega
  rw [hw]
  refine congrArg (· * _) (Finset.sum_congr rfl fun s _ => ?_)
  have hv : iblk1 V c 2 t (ix3 (0 : Fin 1) s k) = V c main_v8_2 (ix3 b s k) := by
    show V c main_v8_2 (((cfg1.win 2).blk t).view.emb (ix3 (0 : Fin 1) s k)) = _
    refine congrArg _ (funext fun a => Fin.ext ?_)
    match a with
    | ⟨0, _⟩ => show win1_2.index t (0 : Fin 3) * 1 + 1 * 0 = b.val; omega
    | ⟨1, _⟩ => show win1_2.index t (1 : Fin 3) * 4096 + 1 * s.val = s.val; omega
    | ⟨2, _⟩ => show win1_2.index t (2 : Fin 3) * 128 + 1 * k.val = k.val; omega
  have ha : Blocks.attnBlkC (iblk1 V c 0 t) (iblk1 V c 1 t) p s
      = LowRank.attnOf (LowRank.scoreWide (V c main_v8_0) (V c main_v8_1)) (ix3 b r s) := by
    show LowRank.softRow (Blocks.blockScores (iblk1 V c 0 t) (iblk1 V c 1 t) p) s
      = LowRank.softRow (LowRank.scoreWide (V c main_v8_0) (V c main_v8_1) b r) s
    rw [hrow]
  rw [ha, hv]

/-- An index of the array is in point `t`'s block iff each coordinate is in the block's range on its axis. -/
theorem mem_blk1_5 (t : Fin cfg1.N) (i : S4x4096x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v9_0).slice (win1_5.rect t)).set ↔ _
  rw [View.set_slice_whole, Rect.mem_set_unit]
  exact Iff.rfl

/-- Every block of the array is some point's. -/
theorem idx_onto1_5 : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- The blocks tile the array: row `r` of batch `b` is in the block of the point `(b, r / 512)`. -/
theorem cover1_5_arr (i : S4x4096x1024.Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 1024 := (i 2).isLt
  obtain ⟨t, ht⟩ := idx_onto1_5 ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- The output array after the region. -/
theorem final1_5 (c : Dev nD) :
    (dat1 V c).arrAt 5 cfg1.N
      = LowRank.outOf (LowRank.attnOf (LowRank.scoreWide (V c main_v8_0) (V c main_v8_1))) (V c main_v8_2) (V c main_v7) (V c main_arg10) :=
  (dat1 V c).arrAt_eq_of_cover 5 _ (fun t _ => flushed1_5_eq V c t) cover1_5_arr

end Cert.KernelIdeal.RegionValue

end
-- ==== Proof.HostSide.lean ====
/-
  The host operations before the two kernel calls, read as values. Each of the three projection weight matrices is
  padded below with 64 rows of the integer zero converted to a float, which is zero, and the output weight matrix is
  padded on the right with 64 such columns; the change of format that follows each padding is the identity on the
  extended reals. The padded matrices are therefore the specification's `padRows` and `padCols` of the arguments. No
  host operation and no kernel call writes an argument, so at the entry of the kernel call that reads it every
  argument's buffer holds what was launched; and at the entry of the second kernel call the three projected arrays
  hold what the first call's write-backs leave.
-/
import proofs.«177251_j40862318854763_2_alg».proof.Proof.Gen.KernelIdeal.Frame
import proofs.«177251_j40862318854763_2_alg».proof.Proof.AttnSpec
import Idealize.ShloMosaic.Lib.StableHlo.Run
import Idealize.ShloMosaic.Lib.KernelVsHost

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

/-! ## A matrix padded with zero rows or zero columns, read as a function of its index -/

/-- The integer zero converted to a float is zero, at the scalar shape's one index. -/
theorem zero_word_at (hu : 0 < S_.numel) :
    (sitofp .f32 (constantI S_ 32 0#32) : FVec Ideal S_ .f32) (Shape.Idx.first hu) = 0 :=
  sitofp_zero

/-- 64 rows of 1024 padded below with 64 rows of a value that is zero: the rows followed by zero rows. -/
theorem pad_rows_eq (x : S64x1024.Idx → EReal) (v : S_.Idx → EReal)
    (hp : S64x1024.Pads ![0, 0] ![64, 0] ![0, 0] S128x1024) (hu : 0 < S_.numel) (hv : v (Shape.Idx.first hu) = 0) :
    pad S128x1024 ![0, 0] ![64, 0] ![0, 0] x v hp hu = LowRank.padRows x := by
  funext j
  obtain ⟨k, h, rfl⟩ : ∃ (k : Fin 128) (h : Fin 1024), j = ix2 k h := ⟨j 0, j 1, eq_ix2 j⟩
  unfold LowRank.padRows
  by_cases hk : k.val < 64
  · rw [dif_pos (show ((ix2 k h : (⟨2, ![128, 1024]⟩ : Shape).Idx) 0).val < 64 from hk)]
    exact pad_apply_of_inside _ _ _ x v hp hu (ix2 k h) (ix2 (⟨k.val, hk⟩ : Fin 64) h) (fun a => match a with
      | ⟨0, _⟩ => by show k.val = 0 + k.val * (0 + 1); omega
      | ⟨1, _⟩ => by show h.val = 0 + h.val * (0 + 1); omega)
  · rw [dif_neg (show ¬ ((ix2 k h : (⟨2, ![128, 1024]⟩ : Shape).Idx) 0).val < 64 from hk)]
    rw [pad_apply_of_not_inside _ _ _ x v hp hu (ix2 k h) ⟨0, by decide⟩ (by
      show ¬(0 ≤ k.val ∧ (k.val - 0) % 1 = 0 ∧ (k.val - 0) / 1 < 64)
      omega), hv]

/-- 1024 rows of 64 padded on the right with 64 columns of a value that is zero: the columns followed by zero
    columns. -/
theorem pad_cols_eq (x : S1024x64.Idx → EReal) (v : S_.Idx → EReal)
    (hp : S1024x64.Pads ![0, 0] ![0, 64] ![0, 0] S1024x128) (hu : 0 < S_.numel) (hv : v (Shape.Idx.first hu) = 0) :
    pad S1024x128 ![0, 0] ![0, 64] ![0, 0] x v hp hu = LowRank.padCols x := by
  funext j
  obtain ⟨k, h, rfl⟩ : ∃ (k : Fin 1024) (h : Fin 128), j = ix2 k h := ⟨j 0, j 1, eq_ix2 j⟩
  unfold LowRank.padCols
  by_cases hh : h.val < 64
  · rw [dif_pos (show ((ix2 k h : (⟨2, ![1024, 128]⟩ : Shape).Idx) 1).val < 64 from hh)]
    exact pad_apply_of_inside _ _ _ x v hp hu (ix2 k h) (ix2 k (⟨h.val, hh⟩ : Fin 64)) (fun a => match a with
      | ⟨0, _⟩ => by show k.val = 0 + k.val * (0 + 1); omega
      | ⟨1, _⟩ => by show h.val = 0 + h.val * (0 + 1); omega)
  · rw [dif_neg (show ¬ ((ix2 k h : (⟨2, ![1024, 128]⟩ : Shape).Idx) 1).val < 64 from hh)]
    rw [pad_apply_of_not_inside _ _ _ x v hp hu (ix2 k h) ⟨1, by decide⟩ (by
      show ¬(0 ≤ h.val ∧ (h.val - 0) % 1 = 0 ∧ (h.val - 0) / 1 < 64)
      omega), hv]

variable (m : (ℓ : Loc nD τ sig) → Buf (Elt Ideal) ℓ) (ρ : Dev nD → PrngReg)

/-! ## The padded weights at the entry of the kernel calls -/

/-- At the first kernel call's entry the first padded weights are the query weights followed by zero rows. -/
theorem v1_eq (c : Dev nD) :
    (V9 m ρ c main_v1 : S128x1024.Idx → EReal) = LowRank.padRows (m ((c : Thread nD τ).loc main_arg3)) := by
  simp only [V9, W9, W8, W7, W6, W5, W4, W3, W2, W1, hostOps0_8, hostOps0_7, hostOps0_6, hostOps0_5, hostOps0_4, hostOps0_3, hostOps0_2, hostOps0_1, hostOps0]
  after_results
  exact pad_rows_eq (m ((c : Thread nD τ).loc main_arg3)) (sitofp .f32 (constantI S_ 32 0#32) : FVec Ideal S_ .f32)
    pads_S64x1024_S128x1024_0640_000 h_S_ (zero_word_at h_S_)

/-- At the first kernel call's entry the second padded weights are the key weights followed by zero rows. -/
theorem v3_eq (c : Dev nD) :
    (V9 m ρ c main_v3 : S128x1024.Idx → EReal) = LowRank.padRows (m ((c : Thread nD τ).loc main_arg4)) := by
  simp only [V9, W9, W8, W7, W6, W5, W4, W3, W2, W1, hostOps0_8, hostOps0_7, hostOps0_6, hostOps0_5, hostOps0_4, hostOps0_3, hostOps0_2, hostOps0_1, hostOps0]
  after_results
  exact pad_rows_eq (m ((c : Thread nD τ).loc main_arg4)) (sitofp .f32 (constantI S_ 32 0#32) : FVec Ideal S_ .f32)
    pads_S64x1024_S128x1024_0640_000 h_S_ (zero_word_at h_S_)

/-- At the first kernel call's entry the third padded weights are the value weights followed by zero rows. -/
theorem v5_eq (c : Dev nD) :
    (V9 m ρ c main_v5 : S128x1024.Idx → EReal) = LowRank.padRows (m ((c : Thread nD τ).loc main_arg5)) := by
  simp only [V9, W9, W8, W7, W6, W5, W4, W3, W2, W1, hostOps0_8, hostOps0_7, hostOps0_6, hostOps0_5, hostOps0_4, hostOps0_3, hostOps0_2, hostOps0_1, hostOps0]
  after_results
  exact pad_rows_eq (m ((c : Thread nD τ).loc main_arg5)) (sitofp .f32 (constantI S_ 32 0#32) : FVec Ideal S_ .f32)
    pads_S64x1024_S128x1024_0640_000 h_S_ (zero_word_at h_S_)

/-- The padded output weights before the first kernel call are the output weights followed by zero columns. -/
theorem v7_at9 (c : Dev nD) :
    (V9 m ρ c main_v7 : S1024x128.Idx → EReal) = LowRank.padCols (m ((c : Thread nD τ).loc main_arg9)) := by
  simp only [V9, W9, W8, W7, W6, W5, W4, W3, W2, W1, hostOps0_8, hostOps0_7, hostOps0_6, hostOps0_5, hostOps0_4, hostOps0_3, hostOps0_2, hostOps0_1, hostOps0]
  after_results
  exact pad_cols_eq (m ((c : Thread nD τ).loc main_arg9)) (sitofp .f32 (constantI S_ 32 0#32) : FVec Ideal S_ .f32)
    pads_S1024x64_S1024x128_000_0640 h_S_ (zero_word_at h_S_)

/-- The first kernel call does not write the padded output weights, so they are the same at the second call's entry. -/
theorem v7_eq (c : Dev nD) :
    (V10 m ρ c main_v7 : S1024x128.Idx → EReal) = LowRank.padCols (m ((c : Thread nD τ).loc main_arg9)) :=
  (W10_of_ne m ρ c main_v7 (by decide)).trans (v7_at9 m ρ c)

/-! ## The arguments at the entry of the kernel call that reads them -/

/-- At the first kernel call's entry the query input holds what was launched. -/
theorem arg_at9_0 (c : Dev nD) : V9 m ρ c main_arg0 = m ((c : Thread nD τ).loc main_arg0) :=
  ((W10_arr m ρ c 0).trans (((dat0 (V9 m ρ) c).arrAt_in 0 rfl _).trans (A_eq0 (V9 m ρ) c 0))).symm.trans
    ((W11_of_ne m ρ c main_arg0 (by decide)).symm.trans (W11_main_arg0 m ρ c))

/-- At the first kernel call's entry the key input holds what was launched. -/
theorem arg_at9_1 (c : Dev nD) : V9 m ρ c main_arg1 = m ((c : Thread nD τ).loc main_arg1) :=
  ((W10_arr m ρ c 1).trans (((dat0 (V9 m ρ) c).arrAt_in 1 rfl _).trans (A_eq0 (V9 m ρ) c 1))).symm.trans
    ((W11_of_ne m ρ c main_arg1 (by decide)).symm.trans (W11_main_arg1 m ρ c))

/-- At the first kernel call's entry the value input holds what was launched. -/
theorem arg_at9_2 (c : Dev nD) : V9 m ρ c main_arg2 = m ((c : Thread nD τ).loc main_arg2) :=
  ((W10_arr m ρ c 2).trans (((dat0 (V9 m ρ) c).arrAt_in 2 rfl _).trans (A_eq0 (V9 m ρ) c 2))).symm.trans
    ((W11_of_ne m ρ c main_arg2 (by decide)).symm.trans (W11_main_arg2 m ρ c))

/-- At the first kernel call's entry the query centre holds what was launched. -/
theorem arg_at9_6 (c : Dev nD) : V9 m ρ c main_arg6 = m ((c : Thread nD τ).loc main_arg6) :=
  ((W10_arr m ρ c 6).trans (((dat0 (V9 m ρ) c).arrAt_in 6 rfl _).trans (A_eq0 (V9 m ρ) c 6))).symm.trans
    ((W11_of_ne m ρ c main_arg6 (by decide)).symm.trans (W11_main_arg6 m ρ c))

/-- At the first kernel call's entry the key centre holds what was launched. -/
theorem arg_at9_7 (c : Dev nD) : V9 m ρ c main_arg7 = m ((c : Thread nD τ).loc main_arg7) :=
  ((W10_arr m ρ c 7).trans (((dat0 (V9 m ρ) c).arrAt_in 7 rfl _).trans (A_eq0 (V9 m ρ) c 7))).symm.trans
    ((W11_of_ne m ρ c main_arg7 (by decide)).symm.trans (W11_main_arg7 m ρ c))

/-- At the first kernel call's entry the value centre holds what was launched. -/
theorem arg_at9_8 (c : Dev nD) : V9 m ρ c main_arg8 = m ((c : Thread nD τ).loc main_arg8) :=
  ((W10_arr m ρ c 8).trans (((dat0 (V9 m ρ) c).arrAt_in 8 rfl _).trans (A_eq0 (V9 m ρ) c 8))).symm.trans
    ((W11_of_ne m ρ c main_arg8 (by decide)).symm.trans (W11_main_arg8 m ρ c))

/-- At the second kernel call's entry the bias holds what was launched. -/
theorem arg10_at10 (c : Dev nD) : V10 m ρ c main_arg10 = m ((c : Thread nD τ).loc main_arg10) :=
  ((W11_arr m ρ c 4).trans (((dat1 (V10 m ρ) c).arrAt_in 4 rfl _).trans (A_eq1 (V10 m ρ) c 4))).symm.trans
    (W11_main_arg10 m ρ c)

/-! ## The projected arrays at the entry of the second kernel call -/

/-- The projected queries are what the first call's write-backs to its tenth array leave. -/
theorem q_at10 (c : Dev nD) : V10 m ρ c main_v8_0 = (dat0 (V9 m ρ) c).arrAt 9 cfg0.N :=
  W10_arr m ρ c 9

/-- The projected keys are what the first call's write-backs to its eleventh array leave. -/
theorem k_at10 (c : Dev nD) : V10 m ρ c main_v8_1 = (dat0 (V9 m ρ) c).arrAt 10 cfg0.N :=
  W10_arr m ρ c 10

/-- The projected values are what the first call's write-backs to its twelfth array leave. -/
theorem v_at10 (c : Dev nD) : V10 m ρ c main_v8_2 = (dat0 (V9 m ρ) c).arrAt 11 cfg0.N :=
  W10_arr m ρ c 11

end Cert.KernelIdeal.HostSide

end
-- ==== Proof.KernelValue.lean ====
/-
  The idealized kernel program's results, as functions of the launch memory.

  On entry to the first region the three weight arrays hold the arguments' weight rows followed by 64 zero rows, and
  the inputs and means are the arguments; so the region leaves the three projections on the padded weights. On entry
  to the second region the queries, keys and values are those projections, the output weights are the argument's
  columns followed by 64 zero columns, and the bias is the argument; so the region leaves the attention weights and
  the output of the padded space (`LowRank.wideAttn`, `LowRank.wideOut`).
-/
import proofs.«177251_j40862318854763_2_alg».proof.Proof.KernelRunAll
import proofs.«177251_j40862318854763_2_alg».proof.Proof.Region0Value
import proofs.«177251_j40862318854763_2_alg».proof.Proof.Region1Value
import proofs.«177251_j40862318854763_2_alg».proof.Proof.HostSide

set_option maxRecDepth 16384

noncomputable section

namespace Cert.KernelIdeal.RunValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The projected queries on entry to the second region. -/
theorem q_entry (c : Dev nD) :
    V10 m ρ c main_v8_0 = LowRank.proj (m ((c : Thread nD τ).loc main_arg0)) (m ((c : Thread nD τ).loc main_arg6)) (LowRank.padRows (m ((c : Thread nD τ).loc main_arg3))) := by
  refine (HostSide.q_at10 m ρ c).trans ((RegionValue.final9 (V9 m ρ) c).trans ?_)
  rw [HostSide.arg_at9_0, HostSide.arg_at9_6, HostSide.v1_eq]

/-- The projected keys on entry to the second region. -/
theorem k_entry (c : Dev nD) :
    V10 m ρ c main_v8_1 = LowRank.proj (m ((c : Thread nD τ).loc main_arg1)) (m ((c : Thread nD τ).loc main_arg7)) (LowRank.padRows (m ((c : Thread nD τ).loc main_arg4))) := by
  refine (HostSide.k_at10 m ρ c).trans ((RegionValue.final10 (V9 m ρ) c).trans ?_)
  rw [HostSide.arg_at9_1, HostSide.arg_at9_7, HostSide.v3_eq]

/-- The projected values on entry to the second region. -/
theorem v_entry (c : Dev nD) :
    V10 m ρ c main_v8_2 = LowRank.proj (m ((c : Thread nD τ).loc main_arg2)) (m ((c : Thread nD τ).loc main_arg8)) (LowRank.padRows (m ((c : Thread nD τ).loc main_arg5))) := by
  refine (HostSide.v_at10 m ρ c).trans ((RegionValue.final11 (V9 m ρ) c).trans ?_)
  rw [HostSide.arg_at9_2, HostSide.arg_at9_8, HostSide.v5_eq]

/-- The attention weights after the run. -/
theorem attn_value (c : Dev nD) :
    W11 m ρ c (Proc.devRef .tc main_v9_1)
      = LowRank.wideAttn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) := by
  refine (W11_arr m ρ c 6).trans ((RegionValue.final1_6 (V10 m ρ) c).trans ?_)
  unfold LowRank.wideAttn
  rw [q_entry, k_entry]

/-- The output after the run. -/
theorem out_value (c : Dev nD) :
    W11 m ρ c (Proc.devRef .tc main_v9_0)
      = LowRank.wideOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W11_arr m ρ c 5).trans ((RegionValue.final1_5 (V10 m ρ) c).trans ?_)
  unfold LowRank.wideOut LowRank.wideAttn
  rw [q_entry, k_entry, v_entry, HostSide.v7_eq, HostSide.arg10_at10]

/-- The run of the idealized kernel program: it terminates, the output array holds the output of the padded space of
    the launch arguments, the weights array its attention weights, and the arguments are unchanged. -/
theorem run : θ_run defs (onTc (τ := τ) (main (F := Ideal))) ⟨m, fun _ => 0, ρ⟩ (fun r => ∀ c : Dev nD,
      r.2.mem ((c.tc : Thread nD τ).loc main_v9_0)
        = LowRank.wideOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v9_1)
        = LowRank.wideAttn (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v9_0 (by decide))).trans (out_value m ρ c),
     (h c _ (mem_uc main_v9_1 (by decide))).trans (attn_value m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_all m ρ)

end Cert.KernelIdeal.RunValue

end
-- ==== Proof.RefValue.lean ====
/-
  The reference program read index by index: each of its operations, read at an index built from coordinates, is the
  corresponding coordinate formula of the specification. Centred rows against weight rows give the projected
  coordinates; their inner products divided by the word of 8 give the scores; the row maximum, taken as a fold of
  `max` from the word of minus infinity and then once more against that word, is the fold itself, since the word
  denotes the least extended real; exponentials of the scores less that maximum, over their sum from the zero word,
  give the attention weights; the weighted mix of projected value rows against the output weights, plus the bias,
  gives the output.
-/
import proofs.«177251_j40862318854763_2_alg».proof.Proof.Gen.ReferenceIdeal.Read
import proofs.«177251_j40862318854763_2_alg».proof.Proof.AttnSpec
import Idealize.ShloMosaic.PureOps.Ideal.Laws
import Idealize.ShloMosaic.Lib.ValueIdx
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S4x4096x1024, .f32⟩ : BufTy).Contents (Elt Ideal))
  (x3 x4 x5 : (⟨S64x1024, .f32⟩ : BufTy).Contents (Elt Ideal))
  (x6 x7 x8 : (⟨S1024, .f32⟩ : BufTy).Contents (Elt Ideal))
  (x9 : (⟨S1024x64, .f32⟩ : BufTy).Contents (Elt Ideal))
  (x10 : (⟨S1024, .f32⟩ : BufTy).Contents (Elt Ideal))

/-! ## Centred rows and projected coordinates -/

/-- The first input less its centre, at `(b, s, h)`. -/
theorem v2_at (b : Fin 4) (s : Fin 4096) (h : Fin 1024) :
    val_main_v2 (F := Ideal) x0 x6 (ix3 b s h) = x0 (ix3 b s h) - x6 (ix1 h) := by
  rw [val_main_v2_apply, val_main_v1_apply, val_main_v0_apply]
  have e : idx_main_v0 (idx_main_v1 (ix3 b s h)) = ix1 h :=
    funext fun a => Fin.ext (by match a with | ⟨0, _⟩ => rfl)
  rw [e]
  rfl

/-- The second input less its centre, at `(b, s, h)`. -/
theorem v6_at (b : Fin 4) (s : Fin 4096) (h : Fin 1024) :
    val_main_v6 (F := Ideal) x1 x7 (ix3 b s h) = x1 (ix3 b s h) - x7 (ix1 h) := by
  rw [val_main_v6_apply, val_main_v5_apply, val_main_v4_apply]
  have e : idx_main_v4 (idx_main_v5 (ix3 b s h)) = ix1 h :=
    funext fun a => Fin.ext (by match a with | ⟨0, _⟩ => rfl)
  rw [e]
  rfl

/-- The third input less its centre, at `(b, s, h)`. -/
theorem v10_at (b : Fin 4) (s : Fin 4096) (h : Fin 1024) :
    val_main_v10 (F := Ideal) x2 x8 (ix3 b s h) = x2 (ix3 b s h) - x8 (ix1 h) := by
  rw [val_main_v10_apply, val_main_v9_apply, val_main_v8_apply]
  have e : idx_main_v8 (idx_main_v9 (ix3 b s h)) = ix1 h :=
    funext fun a => Fin.ext (by match a with | ⟨0, _⟩ => rfl)
  rw [e]
  rfl

/-- The projected queries, at `(b, s, k)`. -/
theorem v3_at (b : Fin 4) (s : Fin 4096) (k : Fin 64) :
    val_main_v3 (F := Ideal) x0 x3 x6 (ix3 b s k) = LowRank.projC x0 x6 x3 b s k := by
  rw [val_main_v3_apply]
  unfold LowRank.projC
  refine Finset.sum_congr rfl fun h _ => ?_
  have el : lidx_main_v3 (ix3 b s k) h = ix3 b s h :=
    funext fun a => Fin.ext (by match a with | ⟨0, _⟩ => rfl | ⟨1, _⟩ => rfl | ⟨2, _⟩ => rfl)
  have er : ridx_main_v3 (ix3 b s k) h = ix2 k h :=
    funext fun a => Fin.ext (by match a with | ⟨0, _⟩ => rfl | ⟨1, _⟩ => rfl)
  rw [el, er, v2_at]

/-- The projected keys, at `(b, s, k)`. -/
theorem v7_at (b : Fin 4) (s : Fin 4096) (k : Fin 64) :
    val_main_v7 (F := Ideal) x1 x4 x7 (ix3 b s k) = LowRank.projC x1 x7 x4 b s k := by
  rw [val_main_v7_apply]
  unfold LowRank.projC
  refine Finset.sum_congr rfl fun h _ => ?_
  have el : lidx_main_v7 (ix3 b s k) h = ix3 b s h :=
    funext fun a => Fin.ext (by match a with | ⟨0, _⟩ => rfl | ⟨1, _⟩ => rfl | ⟨2, _⟩ => rfl)
  have er : ridx_main_v7 (ix3 b s k) h = ix2 k h :=
    funext fun a => Fin.ext (by match a with | ⟨0, _⟩ => rfl | ⟨1, _⟩ => rfl)
  rw [el, er, v6_at]

/-- The projected values, at `(b, s, k)`. -/
theorem v11_at (b : Fin 4) (s : Fin 4096) (k : Fin 64) :
    val_main_v11 (F := Ideal) x2 x5 x8 (ix3 b s k) = LowRank.projC x2 x8 x5 b s k := by
  rw [val_main_v11_apply]
  unfold LowRank.projC
  refine Finset.sum_congr rfl fun h _ => ?_
  have el : lidx_main_v11 (ix3 b s k) h = ix3 b s h :=
    funext fun a => Fin.ext (by match a with | ⟨0, _⟩ => rfl | ⟨1, _⟩ => rfl | ⟨2, _⟩ => rfl)
  have er : ridx_main_v11 (ix3 b s k) h = ix2 k h :=
    funext fun a => Fin.ext (by match a with | ⟨0, _⟩ => rfl | ⟨1, _⟩ => rfl)
  rw [el, er, v10_at]

/-! ## Scores -/

/-- The scores, at `(b, r, s)`. -/
theorem v14_at (b : Fin 4) (r s : Fin 4096) :
    val_main_v14 (F := Ideal) x0 x1 x3 x4 x6 x7 (ix3 b r s)
      = LowRank.scoreNarrow (LowRank.proj x0 x6 x3) (LowRank.proj x1 x7 x4) b r s := by
  rw [val_main_v14_apply, val_main_v12_apply, val_main_v13_apply, val_main_cst_apply]
  unfold LowRank.scoreNarrow
  simp only [Ideal.hostDivf_def, Ideal.ofBits_def]
  refine congrArg (fun t => Ideal.div t (Ideal.ofBits .f32 0x41000000#32)) (Finset.sum_congr rfl fun j _ => ?_)
  have el : lidx_main_v12 (ix3 b r s) j = ix3 b r j :=
    funext fun a => Fin.ext (by match a with | ⟨0, _⟩ => rfl | ⟨1, _⟩ => rfl | ⟨2, _⟩ => rfl)
  have er : ridx_main_v12 (ix3 b r s) j = ix3 b s j :=
    funext fun a => Fin.ext (by match a with | ⟨0, _⟩ => rfl | ⟨1, _⟩ => rfl | ⟨2, _⟩ => rfl)
  rw [el, er, v3_at, v7_at]
  rfl

/-! ## The row maximum -/

/-- The word of minus infinity denotes the least extended real. -/
theorem neg_inf_word : Ideal.ofBits .f32 0xFF800000#32 = (⊥ : EReal) := by
  simp [Ideal.ofBits, Ideal.ieee]

/-- A row's maximum taken once more against the word of minus infinity is the row's maximum. -/
theorem max_word_rowTop (f : Fin 4096 → EReal) :
    max (Ideal.ofBits .f32 0xFF800000#32) (LowRank.rowTop f) = LowRank.rowTop f := by
  apply max_eq_right
  rw [neg_inf_word]
  exact bot_le

/-- Row `(b, r)` with the column `c` put back on the reduced axis is `(b, r, c)`. -/
theorem lift_at (h : S4x4096x4096.Reduces [2] S4x4096) (b : Fin 4) (r c : Fin 4096) :
    h.lift (ix2 b r) c = ix3 b r c := by
  funext d
  apply Fin.ext
  match d with
  | ⟨0, _⟩ => rfl
  | ⟨1, _⟩ => rfl
  | ⟨2, _⟩ => rfl

/-- The reduce by maximum over the columns, at row `(b, r)`. -/
theorem v15_at (b : Fin 4) (r : Fin 4096) :
    val_main_v15 (F := Ideal) x0 x1 x3 x4 x6 x7 (ix2 b r)
      = LowRank.rowTop (LowRank.scoreNarrow (LowRank.proj x0 x6 x3) (LowRank.proj x1 x7 x4) b r) := by
  have hR : S4x4096x4096.Reduces [2] S4x4096 := by decide
  unfold val_main_v15
  rw [Host.reduce_eq_fold_single (FloatOps.maximumf (F := Ideal) (φ := .f32)) _ _
    reducesTo_S4x4096x4096_S4x4096_d2 hR h_S_ (ix2 b r)]
  have hf : (val_main_v14 (F := Ideal) x0 x1 x3 x4 x6 x7 ∘ hR.lift (ix2 b r))
      = LowRank.scoreNarrow (LowRank.proj x0 x6 x3) (LowRank.proj x1 x7 x4) b r := funext fun c =>
    (congrArg (val_main_v14 (F := Ideal) x0 x1 x3 x4 x6 x7) (lift_at hR b r c)).trans (v14_at x0 x1 x3 x4 x6 x7 b r c)
  rw [hf]
  rfl

/-- The row maximum after the second maximum against the word of minus infinity, at row `(b, r)`. -/
theorem v17_at (b : Fin 4) (r : Fin 4096) :
    val_main_v17 (F := Ideal) x0 x1 x3 x4 x6 x7 (ix2 b r)
      = LowRank.rowTop (LowRank.scoreNarrow (LowRank.proj x0 x6 x3) (LowRank.proj x1 x7 x4) b r) := by
  rw [val_main_v17_apply, val_main_v16_apply, val_main_cst_1_apply, v15_at]
  simp only [Ideal.maximumf_def, Ideal.ofBits_def]
  exact max_word_rowTop _

/-! ## Exponentials, their sum, and the attention weights -/

/-- The exponential of a score less its row's maximum, at `(b, r, s)`. -/
theorem v21_at (b : Fin 4) (r s : Fin 4096) :
    val_main_v21 (F := Ideal) x0 x1 x3 x4 x6 x7 (ix3 b r s)
      = Ideal.exp (LowRank.scoreNarrow (LowRank.proj x0 x6 x3) (LowRank.proj x1 x7 x4) b r s
          - LowRank.rowTop (LowRank.scoreNarrow (LowRank.proj x0 x6 x3) (LowRank.proj x1 x7 x4) b r)) := by
  rw [val_main_v21_apply, val_main_v20_apply, val_main_v19_apply, val_main_v18_apply]
  have e : idx_main_v18 (idx_main_v19 (ix3 b r s)) = ix2 b r :=
    funext fun a => Fin.ext (by match a with | ⟨0, _⟩ => rfl | ⟨1, _⟩ => rfl)
  rw [e, v17_at, v14_at]
  rfl

/-- The sum of a row's exponentials, at row `(b, r)`. -/
theorem v22_at (b : Fin 4) (r : Fin 4096) :
    val_main_v22 (F := Ideal) x0 x1 x3 x4 x6 x7 (ix2 b r)
      = ∑ s' : Fin 4096, Ideal.exp (LowRank.scoreNarrow (LowRank.proj x0 x6 x3) (LowRank.proj x1 x7 x4) b r s'
          - LowRank.rowTop (LowRank.scoreNarrow (LowRank.proj x0 x6 x3) (LowRank.proj x1 x7 x4) b r)) := by
  rw [val_main_v22_apply, val_main_cst_2_apply]
  simp only [Ideal.ofBits_def]
  rw [Ideal.ofBits_zero_f32, zero_add]
  refine Finset.sum_congr rfl fun k _ => ?_
  have e : idx_main_v22 (ix2 b r) k = ix3 b r k :=
    funext fun a => Fin.ext (by match a with | ⟨0, _⟩ => rfl | ⟨1, _⟩ => rfl | ⟨2, _⟩ => rfl)
  rw [e, v21_at]

/-- The attention weight, at `(b, r, s)`. -/
theorem v25_at (b : Fin 4) (r s : Fin 4096) :
    val_main_v25 (F := Ideal) x0 x1 x3 x4 x6 x7 (ix3 b r s)
      = LowRank.softRow (LowRank.scoreNarrow (LowRank.proj x0 x6 x3) (LowRank.proj x1 x7 x4) b r) s := by
  rw [val_main_v25_apply, val_main_v24_apply, val_main_v23_apply]
  have e : idx_main_v23 (idx_main_v24 (ix3 b r s)) = ix2 b r :=
    funext fun a => Fin.ext (by match a with | ⟨0, _⟩ => rfl | ⟨1, _⟩ => rfl)
  rw [e, v22_at, v21_at]
  rfl

/-- The reference's attention weights are the specification's. -/
theorem ref_attn :
    Cert.ReferenceIdeal.Read.val_main_v25 (F := Ideal) x0 x1 x3 x4 x6 x7
      = Cert.LowRank.narrowAttn x0 x1 x3 x4 x6 x7 := by
  funext i
  obtain ⟨b, r, s, rfl⟩ : ∃ (b : Fin 4) (r : Fin 4096) (s : Fin 4096), i = ix3 b r s := ⟨i 0, i 1, i 2, eq_ix3 i⟩
  rw [v25_at]
  rfl

/-! ## The mix, the output weights and the bias -/

/-- The attention-weighted mix of projected value rows, at `(b, r, k)`. -/
theorem v26_at (b : Fin 4) (r : Fin 4096) (k : Fin 64) :
    val_main_v26 (F := Ideal) x0 x1 x2 x3 x4 x5 x6 x7 x8 (ix3 b r k)
      = LowRank.mixC (LowRank.narrowAttn x0 x1 x3 x4 x6 x7) (LowRank.proj x2 x8 x5) b r k := by
  rw [val_main_v26_apply, ref_attn]
  unfold LowRank.mixC
  refine Finset.sum_congr rfl fun s _ => ?_
  have el : lidx_main_v26 (ix3 b r k) s = ix3 b r s :=
    funext fun a => Fin.ext (by match a with | ⟨0, _⟩ => rfl | ⟨1, _⟩ => rfl | ⟨2, _⟩ => rfl)
  have er : ridx_main_v26 (ix3 b r k) s = ix3 b s k :=
    funext fun a => Fin.ext (by match a with | ⟨0, _⟩ => rfl | ⟨1, _⟩ => rfl | ⟨2, _⟩ => rfl)
  rw [el, er, v11_at]
  rfl

/-- The mix against the output weights, at `(b, r, h)`. -/
theorem v27_at (b : Fin 4) (r : Fin 4096) (h : Fin 1024) :
    val_main_v27 (F := Ideal) x0 x1 x2 x3 x4 x5 x6 x7 x8 x9 (ix3 b r h)
      = ∑ k : Fin 64, LowRank.mixC (LowRank.narrowAttn x0 x1 x3 x4 x6 x7) (LowRank.proj x2 x8 x5) b r k * x9 (ix2 h k) := by
  rw [val_main_v27_apply]
  refine Finset.sum_congr rfl fun k _ => ?_
  have el : lidx_main_v27 (ix3 b r h) k = ix3 b r k :=
    funext fun a => Fin.ext (by match a with | ⟨0, _⟩ => rfl | ⟨1, _⟩ => rfl | ⟨2, _⟩ => rfl)
  have er : ridx_main_v27 (ix3 b r h) k = ix2 h k :=
    funext fun a => Fin.ext (by match a with | ⟨0, _⟩ => rfl | ⟨1, _⟩ => rfl)
  rw [el, er, v26_at]

/-- The reference's output is the specification's. -/
theorem ref_out :
    Cert.ReferenceIdeal.Read.val_main_v30 (F := Ideal) x0 x1 x2 x3 x4 x5 x6 x7 x8 x9 x10
      = Cert.LowRank.narrowOut x0 x1 x2 x3 x4 x5 x6 x7 x8 x9 x10 := by
  funext i
  obtain ⟨b, r, h, rfl⟩ : ∃ (b : Fin 4) (r : Fin 4096) (h : Fin 1024), i = ix3 b r h := ⟨i 0, i 1, i 2, eq_ix3 i⟩
  rw [val_main_v30_apply, val_main_v29_apply, val_main_v28_apply, v27_at]
  have e : idx_main_v28 (idx_main_v29 (ix3 b r h)) = ix1 h :=
    funext fun a => Fin.ext (by match a with | ⟨0, _⟩ => rfl)
  rw [e]
  rfl

end Cert.ReferenceIdeal.RefValue

end
-- ==== Proof.lean ====
/-
  Attention in a low-rank space: a kernel in two regions against a jnp reference, equal on the extended reals.

  The kernel pads each 64-row down-projection weight matrix with 64 zero rows and the output weight matrix with 64
  zero columns, projects the queries, keys and values in one region (centred input rows against the 128 weight rows),
  and in a second region computes, per block of 512 query rows, the scores against all keys scaled by 1/8, the
  row softmax, the mix of value rows and the output projection with bias. The reference does the same in the 64
  coordinates, dividing the scores by 8. On the extended reals a padded coordinate is a sum of products with zero,
  hence zero whatever the inputs, so it contributes nothing to any contraction over the 128 coordinates, and
  multiplying by 1/8 is dividing by 8 (`LowRank.attn_eq`, `LowRank.out_eq`); changes of float format are the identity.

  The kernel's two result arrays are read off its run segment by segment: the host stretches give the padded
  weights (`HostSide`), the first region the three projections (`RegionValue.final9` … `final11`), the second the
  weights and the output (`RegionValue.final1_6`, `final1_5`), each region's 32 blocks tiling its arrays
  (`RunValue.run`). The reference's results are its run's terms read one operation at a time (`RefValue`). The
  ideal pass rewrote nothing, so the kernel is its own idealization.
-/
import proofs.«177251_j40862318854763_2_alg».proof.Defs
import proofs.«177251_j40862318854763_2_alg».proof.Proof.Gen.Kernel
import proofs.«177251_j40862318854763_2_alg».proof.Proof.Gen.Kernel.Skeleton
import proofs.«177251_j40862318854763_2_alg».proof.Proof.Gen.Kernel.Launch
import proofs.«177251_j40862318854763_2_alg».proof.Proof.Gen.Kernel.Points
import proofs.«177251_j40862318854763_2_alg».proof.Proof.Gen.Kernel.Frame
import proofs.«177251_j40862318854763_2_alg».proof.Proof.Gen.KernelIdeal
import proofs.«177251_j40862318854763_2_alg».proof.Proof.Gen.KernelIdeal.Skeleton
import proofs.«177251_j40862318854763_2_alg».proof.Proof.Gen.KernelIdeal.Launch
import proofs.«177251_j40862318854763_2_alg».proof.Proof.Gen.KernelIdeal.Points
import proofs.«177251_j40862318854763_2_alg».proof.Proof.Gen.KernelIdeal.Frame
import proofs.«177251_j40862318854763_2_alg».proof.Proof.Gen.ReferenceIdeal
import proofs.«177251_j40862318854763_2_alg».proof.Proof.Gen.Pre_finite_inputs
import proofs.«177251_j40862318854763_2_alg».proof.Proof.Gen.ReferenceIdeal.Run
import proofs.«177251_j40862318854763_2_alg».proof.Proof.Gen.ReferenceIdeal.Read
import proofs.«177251_j40862318854763_2_alg».proof.Proof.AttnSpec
import proofs.«177251_j40862318854763_2_alg».proof.Proof.KernelValue
import proofs.«177251_j40862318854763_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel's output and weights arrays end at the formulas of the
    padded space and the reference's at the formulas of the 64 coordinates, which are the same arrays. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v30_eq, Cert.ReferenceIdeal.RefValue.ref_out, ← Cert.LowRank.out_eq,
      a0, a1, a2, a3, a4, a5, a6, a7, a8, a9, a10]
  · obtain ⟨a0, a1, a2, a3, a4, a5, a6, a7, a8, a9, a10⟩ := hagree c
    rw [(h c).2.1, Cert.ReferenceIdeal.Read.val_main_v25_eq, Cert.ReferenceIdeal.RefValue.ref_attn, ← Cert.LowRank.attn_eq,
      a0, a1, a3, a4, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
